-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v12) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x5x6x20 : Shape := ⟨4, ![10000, 5, 6, 20]⟩
abbrev S5 : Shape := ⟨1, ![5]⟩
abbrev S5x6 : Shape := ⟨2, ![5, 6]⟩
abbrev S5x6x20x20 : Shape := ⟨4, ![5, 6, 20, 20]⟩
abbrev S_ : Shape := ⟨0, ![]⟩

class Facts : Prop where
  bcast_S_S10000x5x6x20 : S_.BroadcastsInDim S10000x5x6x20 (![] : Fin 0 → Fin S10000x5x6x20.rank)
  reducesTo_S10000x5x6x20_S_d0_1_2_3 : S10000x5x6x20.ReducesTo [0, 1, 2, 3] S_
  h_S_ : 0 < S_.numel
  bcast_S_S5 : S_.BroadcastsInDim S5 (![] : Fin 0 → Fin S5.rank)
  reducesTo_S5_S_d0 : S5.ReducesTo [0] S_
  bcast_S_S5x6 : S_.BroadcastsInDim S5x6 (![] : Fin 0 → Fin S5x6.rank)
  reducesTo_S5x6_S_d0_1 : S5x6.ReducesTo [0, 1] S_
  bcast_S_S5x6x20x20 : S_.BroadcastsInDim S5x6x20x20 (![] : Fin 0 → Fin S5x6x20x20.rank)
  reducesTo_S5x6x20x20_S_d0_1_2_3 : S5x6x20x20.ReducesTo [0, 1, 2, 3] S_

variable [Facts]

def fn_part1 {F : FTy → Type} [FloatOps F] (main_v13 : IVec S_ 1) (main_v16 : IVec S5x6x20x20 1) : IVec S_ 1 :=
  let main_c_5 : IVec S_ 1 := constantI S_ 1 1#1
  let main_v17 : IVec S_ 1 := (fun x v => Host.reduce IntOp.andi x v reducesTo_S5x6x20x20_S_d0_1_2_3 h_S_) main_v16 main_c_5
  let main_v18 : IVec S_ 1 := andi main_v13 main_v17
  main_v18

def fn {F : FTy → Type} [FloatOps F] (main_arg0 : FVec F S10000x5x6x20 .f32) (main_arg1 : FVec F S5 .f32) (main_arg2 : FVec F S5x6 .f32) (main_arg3 : FVec F S5x6x20x20 .f32) : IVec S_ 1 :=
  let main_v0 : FVec F S10000x5x6x20 .f32 := Host.absf main_arg0
  let main_cst : FVec F S_ .f32 := constant S_ .f32 0x7F800000#32
  let main_v1 : FVec F S10000x5x6x20 .f32 := broadcastInDim S10000x5x6x20 ![] bcast_S_S10000x5x6x20 main_cst
  let main_v2 : IVec S10000x5x6x20 1 := cmpf .olt main_v0 main_v1
  let main_c : IVec S_ 1 := constantI S_ 1 1#1
  let main_v3 : IVec S_ 1 := (fun x v => Host.reduce IntOp.andi x v reducesTo_S10000x5x6x20_S_d0_1_2_3 h_S_) main_v2 main_c
  let main_v4 : FVec F S5 .f32 := Host.absf main_arg1
  let main_cst_0 : FVec F S_ .f32 := constant S_ .f32 0x7F800000#32
  let main_v5 : FVec F S5 .f32 := broadcastInDim S5 ![] bcast_S_S5 main_cst_0
  let main_v6 : IVec S5 1 := cmpf .olt main_v4 main_v5
  let main_c_1 : IVec S_ 1 := constantI S_ 1 1#1
  let main_v7 : IVec S_ 1 := (fun x v => Host.reduce IntOp.andi x v reducesTo_S5_S_d0 h_S_) main_v6 main_c_1
  let main_v8 : IVec S_ 1 := andi main_v3 main_v7
  let main_v9 : FVec F S5x6 .f32 := Host.absf main_arg2
  let main_cst_2 : FVec F S_ .f32 := constant S_ .f32 0x7F800000#32
  let main_v10 : FVec F S5x6 .f32 := broadcastInDim S5x6 ![] bcast_S_S5x6 main_cst_2
  let main_v11 : IVec S5x6 1 := cmpf .olt main_v9 main_v10
  let main_c_3 : IVec S_ 1 := constantI S_ 1 1#1
  let main_v12 : IVec S_ 1 := (fun x v => Host.reduce IntOp.andi x v reducesTo_S5x6_S_d0_1 h_S_) main_v11 main_c_3
  let main_v13 : IVec S_ 1 := andi main_v8 main_v12
  let main_v14 : FVec F S5x6x20x20 .f32 := Host.absf main_arg3
  let main_cst_4 : FVec F S_ .f32 := constant S_ .f32 0x7F800000#32
  let main_v15 : FVec F S5x6x20x20 .f32 := broadcastInDim S5x6x20x20 ![] bcast_S_S5x6x20x20 main_cst_4
  let main_v16 : IVec S5x6x20x20 1 := cmpf .olt main_v14 main_v15
  fn_part1 (F := F) main_v13 main_v16
-- ==== Kernel.lean ====
abbrev S10000x5x6x20 : Shape := ⟨4, ![10000, 5, 6, 20]⟩
abbrev S5 : Shape := ⟨1, ![5]⟩
abbrev S5x6 : Shape := ⟨2, ![5, 6]⟩
abbrev S5x6x20x20 : Shape := ⟨4, ![5, 6, 20, 20]⟩
abbrev S5x1 : Shape := ⟨2, ![5, 1]⟩
abbrev S10000x600 : Shape := ⟨2, ![10000, 600]⟩
abbrev S_ : Shape := ⟨0, ![]⟩
abbrev S10008x600 : Shape := ⟨2, ![10008, 600]⟩
abbrev S10008x20 : Shape := ⟨2, ![10008, 20]⟩
abbrev S10008x12000 : Shape := ⟨2, ![10008, 12000]⟩
abbrev S24x600 : Shape := ⟨2, ![24, 600]⟩
abbrev S24x20 : Shape := ⟨2, ![24, 20]⟩
abbrev S24x12000 : Shape := ⟨2, ![24, 12000]⟩
abbrev S24x5x6x20 : Shape := ⟨4, ![24, 5, 6, 20]⟩
abbrev S24x5x6 : Shape := ⟨3, ![24, 5, 6]⟩
abbrev S24x5x6x1 : Shape := ⟨4, ![24, 5, 6, 1]⟩
abbrev S1x5x6x20x20 : Shape := ⟨5, ![1, 5, 6, 20, 20]⟩
abbrev S24x5x6x1x20 : Shape := ⟨5, ![24, 5, 6, 1, 20]⟩
abbrev S24x5x6x20x20 : Shape := ⟨5, ![24, 5, 6, 20, 20]⟩
abbrev S24x5x6x1x1 : Shape := ⟨5, ![24, 5, 6, 1, 1]⟩
abbrev S1x5x6x1 : Shape := ⟨4, ![1, 5, 6, 1]⟩
abbrev S24x5x20 : Shape := ⟨3, ![24, 5, 20]⟩
abbrev S1x5x6x1x1 : Shape := ⟨5, ![1, 5, 6, 1, 1]⟩
abbrev S10000x20 : Shape := ⟨2, ![10000, 20]⟩
abbrev S10000x12000 : Shape := ⟨2, ![10000, 12000]⟩
abbrev S10000x5x6x20x20 : Shape := ⟨5, ![10000, 5, 6, 20, 20]⟩

abbrev nBuf : Space → Nat
  | .hbm => 19
  | .vmem => 10
  | .smem => 0
  | _ => 0

abbrev bufTy : (tb : Table) → Fin (tcTables nBuf tb) → BufTy
  | .hbm, ⟨0, _⟩ => ⟨S10000x5x6x20, .f32⟩
  | .hbm, ⟨1, _⟩ => ⟨S5, .f32⟩
  | .hbm, ⟨2, _⟩ => ⟨S5x6, .f32⟩
  | .hbm, ⟨3, _⟩ => ⟨S5x6x20x20, .f32⟩
  | .hbm, ⟨4, _⟩ => ⟨S5x1, .f32⟩
  | .hbm, ⟨5, _⟩ => ⟨S5x6, .f32⟩
  | .hbm, ⟨6, _⟩ => ⟨S5x6, .f32⟩
  | .hbm, ⟨7, _⟩ => ⟨S10000x600, .f32⟩
  | .hbm, ⟨8, _⟩ => ⟨S_, .i32⟩
  | .hbm, ⟨9, _⟩ => ⟨S_, .f32⟩
  | .hbm, ⟨10, _⟩ => ⟨S10008x600, .f32⟩
  | .hbm, ⟨11, _⟩ => ⟨S10008x20, .f32⟩
  | .hbm, ⟨12, _⟩ => ⟨S10008x12000, .f32⟩
  | .hbm, ⟨13, _⟩ => ⟨S10008x12000, .f32⟩
  | .hbm, ⟨14, _⟩ => ⟨S10000x20, .f32⟩
  | .hbm, ⟨15, _⟩ => ⟨S10000x12000, .f32⟩
  | .hbm, ⟨16, _⟩ => ⟨S10000x12000, .f32⟩
  | .hbm, ⟨17, _⟩ => ⟨S10000x5x6x20x20, .f32⟩
  | .hbm, ⟨18, _⟩ => ⟨S10000x5x6x20x20, .f32⟩
  | .local _ .vmem, ⟨0, _⟩ => ⟨S24x600, .f32⟩
  | .local _ .vmem, ⟨1, _⟩ => ⟨S24x600, .f32⟩
  | .local _ .vmem, ⟨2, _⟩ => ⟨S5x6, .f32⟩
  | .local _ .vmem, ⟨3, _⟩ => ⟨S5x6x20x20, .f32⟩
  | .local _ .vmem, ⟨4, _⟩ => ⟨S24x20, .f32⟩
  | .local _ .vmem, ⟨5, _⟩ => ⟨S24x20, .f32⟩
  | .local _ .vmem, ⟨6, _⟩ => ⟨S24x12000, .f32⟩
  | .local _ .vmem, ⟨7, _⟩ => ⟨S24x12000, .f32⟩
  | .local _ .vmem, ⟨8, _⟩ => ⟨S24x12000, .f32⟩
  | .local _ .vmem, ⟨9, _⟩ => ⟨S24x12000, .f32⟩
  | _, _ => ⟨S10000x5x6x20, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![417], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S24x600 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x6 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5x6x20x20 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S24x20 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S24x12000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S24x12000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S5_S5x1_0 : S5.BroadcastsInDim S5x1 (![0] : Fin 1 → Fin S5x1.rank)
  bcast_S5x1_S5x6_0_1 : S5x1.BroadcastsInDim S5x6 (![0, 1] : Fin 2 → Fin S5x6.rank)
  shapeCasts_S10000x5x6x20_S10000x600 : S10000x5x6x20.ShapeCasts S10000x600
  pads_S10000x600_S10008x600_080_000 : S10000x600.Pads (![0, 0] : Fin 2 → Nat) ![8, 0] ![0, 0] S10008x600
  h_S_ : 0 < S_.numel
  inb_S24x600_S24x600_0_0 : ∀ a, (![0, 0] : Fin 2 → Nat) a + S24x600.size a ≤ S24x600.size a
  h_S24x600 : 0 < S24x600.numel
  shapeCasts_S24x600_S24x600 : S24x600.ShapeCasts S24x600
  shapeCasts_S24x600_S24x5x6x20 : S24x600.ShapeCasts S24x5x6x20
  inb_S5x6x20x20_S5x6x20x20_0_0_0_0 : ∀ a, (![0, 0, 0, 0] : Fin 4 → Nat) a + S5x6x20x20.size a ≤ S5x6x20x20.size a
  h_S5x6x20x20 : 0 < S5x6x20x20.numel
  inb_S5x6_S5x6_0_0 : ∀ a, (![0, 0] : Fin 2 → Nat) a + S5x6.size a ≤ S5x6.size a
  h_S5x6 : 0 < S5x6.numel
  shapeCasts_S5x6_S5x6 : S5x6.ShapeCasts S5x6
  reduces_S24x5x6x20_S24x5x6 : S24x5x6x20.Reduces [3] S24x5x6
  shapeCasts_S24x5x6_S24x5x6x1 : S24x5x6.ShapeCasts S24x5x6x1
  shapeCasts_S5x6x20x20_S1x5x6x20x20 : S5x6x20x20.ShapeCasts S1x5x6x20x20
  shapeCasts_S24x5x6x20_S24x5x6x1x20 : S24x5x6x20.ShapeCasts S24x5x6x1x20
  broadcasts_S1x5x6x20x20_S24x5x6x20x20 : S1x5x6x20x20.Broadcasts S24x5x6x20x20
  broadcasts_S24x5x6x1x20_S24x5x6x20x20 : S24x5x6x1x20.Broadcasts S24x5x6x20x20
  shapeCasts_S24x5x6x1_S24x5x6x1x1 : S24x5x6x1.ShapeCasts S24x5x6x1x1
  broadcasts_S24x5x6x1x1_S24x5x6x20x20 : S24x5x6x1x1.Broadcasts S24x5x6x20x20
  shapeCasts_S24x5x6x20x20_S24x12000 : S24x5x6x20x20.ShapeCasts S24x12000
  inb_S24x12000_S24x12000_0_0 : ∀ a, (![0, 0] : Fin 2 → Nat) a + S24x12000.size a ≤ S24x12000.size a
  h_S24x12000 : 0 < S24x12000.numel
  reduces_S24x5x6x20x20_S24x5x6x20 : S24x5x6x20x20.Reduces [4] S24x5x6x20
  shapeCasts_S5x6_S1x5x6x1 : S5x6.ShapeCasts S1x5x6x1
  broadcasts_S1x5x6x1_S24x5x6x20 : S1x5x6x1.Broadcasts S24x5x6x20
  reduces_S24x5x6x20_S24x5x20 : S24x5x6x20.Reduces [2] S24x5x20
  reduces_S24x5x20_S24x20 : S24x5x20.Reduces [1] S24x20
  inb_S24x20_S24x20_0_0 : ∀ a, (![0, 0] : Fin 2 → Nat) a + S24x20.size a ≤ S24x20.size a
  h_S24x20 : 0 < S24x20.numel
  shapeCasts_S5x6_S1x5x6x1x1 : S5x6.ShapeCasts S1x5x6x1x1
  broadcasts_S1x5x6x1x1_S24x5x6x20x20 : S1x5x6x1x1.Broadcasts S24x5x6x20x20
  slices_S10008x20_S10000x20_0_0 : S10008x20.Slices ![0, 0] S10000x20
  slices_S10008x12000_S10000x12000_0_0 : S10008x12000.Slices ![0, 0] S10000x12000
  shapeCasts_S10000x12000_S10000x5x6x20x20 : S10000x12000.ShapeCasts S10000x5x6x20x20
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S24x600.size a ≤ S10008x600.size a
  hwx0_0 : ∀ i : grid0.Coords, EltTy.bits .f32 = 32 ∨ (Rect.block (s := S10008x600) S24x600.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x6.size a ≤ S5x6.size a
  hwx0_1 : ∀ i : grid0.Coords, EltTy.bits .f32 = 32 ∨ (Rect.block (s := S5x6) S5x6.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S5x6x20x20.size a ≤ S5x6x20x20.size a
  hwx0_2 : ∀ i : grid0.Coords, EltTy.bits .f32 = 32 ∨ (Rect.block (s := S5x6x20x20) S5x6x20x20.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S24x20.size a ≤ S10008x20.size a
  hwx0_3 : ∀ i : grid0.Coords, EltTy.bits .f32 = 32 ∨ (Rect.block (s := S10008x20) S24x20.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S24x12000.size a ≤ S10008x12000.size a
  hwx0_4 : ∀ i : grid0.Coords, EltTy.bits .f32 = 32 ∨ (Rect.block (s := S10008x12000) S24x12000.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S24x12000.size a ≤ S10008x12000.size a
  hwx0_5 : ∀ i : grid0.Coords, EltTy.bits .f32 = 32 ∨ (Rect.block (s := S10008x12000) S24x12000.size (cc0_transform_5 i) (hinb0_5 i)).WholeWords (EltTy.packing .f32)

variable [Facts₀]

abbrev win0_0 : Pipeline.Window sig grid0 :=
  Pipeline.Window.ofSpec (Memref.whole main_v4) S24x600.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S5x6.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S5x6x20x20.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5_0) S24x20.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_1) S24x12000.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_2) S24x12000.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x5x6x20 : Shape := ⟨4, ![10000, 5, 6, 20]⟩
abbrev S5 : Shape := ⟨1, ![5]⟩
abbrev S5x6 : Shape := ⟨2, ![5, 6]⟩
abbrev S5x6x20x20 : Shape := ⟨4, ![5, 6, 20, 20]⟩
abbrev S_ : Shape := ⟨0, ![]⟩
abbrev S10000x5x6 : Shape := ⟨3, ![10000, 5, 6]⟩
abbrev S10000x5x6x1 : Shape := ⟨4, ![10000, 5, 6, 1]⟩
abbrev S10000x5x6x1x1 : Shape := ⟨5, ![10000, 5, 6, 1, 1]⟩
abbrev S1x5x6x20x20 : Shape := ⟨5, ![1, 5, 6, 20, 20]⟩
abbrev S10000x5x6x1x20 : Shape := ⟨5, ![10000, 5, 6, 1, 20]⟩
abbrev S10000x5x6x20x20 : Shape := ⟨5, ![10000, 5, 6, 20, 20]⟩
abbrev S1x5x6x1 : Shape := ⟨4, ![1, 5, 6, 1]⟩
abbrev S10000x5x20 : Shape := ⟨3, ![10000, 5, 20]⟩
abbrev S1x5x1 : Shape := ⟨3, ![1, 5, 1]⟩
abbrev S10000x20 : Shape := ⟨2, ![10000, 20]⟩
abbrev S1x5x1x1x1 : Shape := ⟨5, ![1, 5, 1, 1, 1]⟩
abbrev S1x5x6x1x1 : Shape := ⟨5, ![1, 5, 6, 1, 1]⟩

abbrev nBuf : Space → Nat
  | .hbm => 39
  | .vmem => 0
  | .smem => 0
  | _ => 0

abbrev bufTy : (tb : Table) → Fin (tcTables nBuf tb) → BufTy
  | .hbm, ⟨0, _⟩ => ⟨S10000x5x6x20, .f32⟩
  | .hbm, ⟨1, _⟩ => ⟨S5, .f32⟩
  | .hbm, ⟨2, _⟩ => ⟨S5x6, .f32⟩
  | .hbm, ⟨3, _⟩ => ⟨S5x6x20x20, .f32⟩
  | .hbm, ⟨4, _⟩ => ⟨S_, .f32⟩
  | .hbm, ⟨5, _⟩ => ⟨S10000x5x6, .f32⟩
  | .hbm, ⟨6, _⟩ => ⟨S10000x5x6x1, .f32⟩
  | .hbm, ⟨7, _⟩ => ⟨S10000x5x6x1x1, .f32⟩
  | .hbm, ⟨8, _⟩ => ⟨S_, .f32⟩
  | .hbm, ⟨9, _⟩ => ⟨S10000x5x6x1x1, .f32⟩
  | .hbm, ⟨10, _⟩ => ⟨S10000x5x6x1x1, .i1⟩
  | .hbm, ⟨11, _⟩ => ⟨S_, .f32⟩
  | .hbm, ⟨12, _⟩ => ⟨S10000x5x6x1x1, .f32⟩
  | .hbm, ⟨13, _⟩ => ⟨S10000x5x6x1x1, .f32⟩
  | .hbm, ⟨14, _⟩ => ⟨S1x5x6x20x20, .f32⟩
  | .hbm, ⟨15, _⟩ => ⟨S10000x5x6x1x20, .f32⟩
  | .hbm, ⟨16, _⟩ => ⟨S10000x5x6x20x20, .f32⟩
  | .hbm, ⟨17, _⟩ => ⟨S10000x5x6x20x20, .f32⟩
  | .hbm, ⟨18, _⟩ => ⟨S10000x5x6x20x20, .f32⟩
  | .hbm, ⟨19, _⟩ => ⟨S10000x5x6x20x20, .f32⟩
  | .hbm, ⟨20, _⟩ => ⟨S10000x5x6x20x20, .f32⟩
  | .hbm, ⟨21, _⟩ => ⟨S1x5x6x1, .f32⟩
  | .hbm, ⟨22, _⟩ => ⟨S_, .f32⟩
  | .hbm, ⟨23, _⟩ => ⟨S10000x5x6x20, .f32⟩
  | .hbm, ⟨24, _⟩ => ⟨S10000x5x6x20, .f32⟩
  | .hbm, ⟨25, _⟩ => ⟨S10000x5x6x20, .f32⟩
  | .hbm, ⟨26, _⟩ => ⟨S_, .f32⟩
  | .hbm, ⟨27, _⟩ => ⟨S10000x5x20, .f32⟩
  | .hbm, ⟨28, _⟩ => ⟨S1x5x1, .f32⟩
  | .hbm, ⟨29, _⟩ => ⟨S10000x5x20, .f32⟩
  | .hbm, ⟨30, _⟩ => ⟨S10000x5x20, .f32⟩
  | .hbm, ⟨31, _⟩ => ⟨S_, .f32⟩
  | .hbm, ⟨32, _⟩ => ⟨S10000x20, .f32⟩
  | .hbm, ⟨33, _⟩ => ⟨S1x5x1x1x1, .f32⟩
  | .hbm, ⟨34, _⟩ => ⟨S1x5x6x1x1, .f32⟩
  | .hbm, ⟨35, _⟩ => ⟨S1x5x6x1x1, .f32⟩
  | .hbm, ⟨36, _⟩ => ⟨S1x5x6x1x1, .f32⟩
  | .hbm, ⟨37, _⟩ => ⟨S10000x5x6x20x20, .f32⟩
  | .hbm, ⟨38, _⟩ => ⟨S10000x5x6x20x20, .f32⟩
  | _, _ => ⟨S10000x5x6x20, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  reducesTo_S10000x5x6x20_S10000x5x6_d3 : S10000x5x6x20.ReducesTo [3] S10000x5x6
  h_S_ : 0 < S_.numel
  bcast_S10000x5x6_S10000x5x6x1_0_1_2 : S10000x5x6.BroadcastsInDim S10000x5x6x1 (![0, 1, 2] : Fin 3 → Fin S10000x5x6x1.rank)
  bcast_S10000x5x6x1_S10000x5x6x1x1_0_1_2_3 : S10000x5x6x1.BroadcastsInDim S10000x5x6x1x1 (![0, 1, 2, 3] : Fin 4 → Fin S10000x5x6x1x1.rank)
  bcast_S_S10000x5x6x1x1 : S_.BroadcastsInDim S10000x5x6x1x1 (![] : Fin 0 → Fin S10000x5x6x1x1.rank)
  bcast_S5x6x20x20_S1x5x6x20x20_1_2_3_4 : S5x6x20x20.BroadcastsInDim S1x5x6x20x20 (![1, 2, 3, 4] : Fin 4 → Fin S1x5x6x20x20.rank)
  bcast_S10000x5x6x20_S10000x5x6x1x20_0_1_2_4 : S10000x5x6x20.BroadcastsInDim S10000x5x6x1x20 (![0, 1, 2, 4] : Fin 4 → Fin S10000x5x6x1x20.rank)
  bcast_S1x5x6x20x20_S10000x5x6x20x20_0_1_2_3_4 : S1x5x6x20x20.BroadcastsInDim S10000x5x6x20x20 (![0, 1, 2, 3, 4] : Fin 5 → Fin S10000x5x6x20x20.rank)
  bcast_S10000x5x6x1x20_S10000x5x6x20x20_0_1_2_3_4 : S10000x5x6x1x20.BroadcastsInDim S10000x5x6x20x20 (![0, 1, 2, 3, 4] : Fin 5 → Fin S10000x5x6x20x20.rank)
  bcast_S10000x5x6x1x1_S10000x5x6x20x20_0_1_2_3_4 : S10000x5x6x1x1.BroadcastsInDim S10000x5x6x20x20 (![0, 1, 2, 3, 4] : Fin 5 → Fin S10000x5x6x20x20.rank)
  bcast_S5x6_S1x5x6x1_1_2 : S5x6.BroadcastsInDim S1x5x6x1 (![1, 2] : Fin 2 → Fin S1x5x6x1.rank)
  reducesTo_S10000x5x6x20x20_S10000x5x6x20_d4 : S10000x5x6x20x20.ReducesTo [4] S10000x5x6x20
  bcast_S1x5x6x1_S10000x5x6x20_0_1_2_3 : S1x5x6x1.BroadcastsInDim S10000x5x6x20 (![0, 1, 2, 3] : Fin 4 → Fin S10000x5x6x20.rank)
  reducesTo_S10000x5x6x20_S10000x5x20_d2 : S10000x5x6x20.ReducesTo [2] S10000x5x20
  bcast_S5_S1x5x1_1 : S5.BroadcastsInDim S1x5x1 (![1] : Fin 1 → Fin S1x5x1.rank)
  bcast_S1x5x1_S10000x5x20_0_1_2 : S1x5x1.BroadcastsInDim S10000x5x20 (![0, 1, 2] : Fin 3 → Fin S10000x5x20.rank)
  reducesTo_S10000x5x20_S10000x20_d1 : S10000x5x20.ReducesTo [1] S10000x20
  bcast_S5_S1x5x1x1x1_1 : S5.BroadcastsInDim S1x5x1x1x1 (![1] : Fin 1 → Fin S1x5x1x1x1.rank)
  bcast_S5x6_S1x5x6x1x1_1_2 : S5x6.BroadcastsInDim S1x5x6x1x1 (![1, 2] : Fin 2 → Fin S1x5x6x1x1.rank)
  bcast_S1x5x1x1x1_S1x5x6x1x1_0_1_2_3_4 : S1x5x1x1x1.BroadcastsInDim S1x5x6x1x1 (![0, 1, 2, 3, 4] : Fin 5 → Fin S1x5x6x1x1.rank)
  bcast_S1x5x6x1x1_S10000x5x6x20x20_0_1_2_3_4 : S1x5x6x1x1.BroadcastsInDim S10000x5x6x20x20 (![0, 1, 2, 3, 4] : Fin 5 → Fin S10000x5x6x20x20.rank)

variable [Facts₀]

class Facts : Prop extends Facts₀ where

variable [Facts]
-- ==== Proof.LibRealEntries.lean ====
/-
  Entries that are real numbers, and the two spellings of a batch's variance.

  On the extended reals the sum and the product are total, but distributing a product over a sum, or cancelling, is
  sound only away from the infinities. `IsReal x` says that `x` is a real number. The operations a normalisation layer is
  spelled with keep entries real: sums, differences, products, maxima, finite sums, a quotient by a nonzero real, the
  reciprocal square root of a positive real; and so do a product of matrices (every entry a finite sum of products), a
  read through an index map, a scatter that adds updates onto an array (every entry the old entry plus a finite sum of
  updates) and a sum over an axis.

  For real entries x_1 … x_n with mean μ = (∑ x_i)/n the mean of the squared deviations, (∑ (x_i − μ)²)/n, is the mean
  of the squares minus the squared mean, (∑ x_i²)/n − μ·μ: expand the square and use ∑ x_i = n·μ. It is nonnegative, so
  adding a positive real and taking the reciprocal square root gives a real.
-/
import Idealize.ShloMosaic.PureOps.Ideal.Laws

noncomputable section

open scoped BigOperators

namespace Cert.LibRealEntries

open Idealize.ShloMosaic

/-- An extended real that is a real number. -/
def IsReal (x : EReal) : Prop := ∃ r : ℝ, x = (r : EReal)

/-- The inclusion of the reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

namespace IsReal

theorem coe (r : ℝ) : IsReal (r : EReal) := ⟨r, rfl⟩

theorem zero : IsReal 0 := ⟨0, rfl⟩

theorem add {x y : EReal} (hx : IsReal x) (hy : IsReal y) : IsReal (x + y) := by
  obtain ⟨a, rfl⟩ := hx; obtain ⟨b, rfl⟩ := hy; exact ⟨a + b, (EReal.coe_add a b).symm⟩

theorem sub {x y : EReal} (hx : IsReal x) (hy : IsReal y) : IsReal (x - y) := by
  obtain ⟨a, rfl⟩ := hx; obtain ⟨b, rfl⟩ := hy; exact ⟨a - b, (EReal.coe_sub a b).symm⟩

theorem mul {x y : EReal} (hx : IsReal x) (hy : IsReal y) : IsReal (x * y) := by
  obtain ⟨a, rfl⟩ := hx; obtain ⟨b, rfl⟩ := hy; exact ⟨a * b, (EReal.coe_mul a b).symm⟩

theorem max {x y : EReal} (hx : IsReal x) (hy : IsReal y) : IsReal (Max.max x y) := by
  rcases max_choice x y with h | h <;> rw [h] <;> assumption

theorem sum {ι : Type} (s : Finset ι) (f : ι → EReal) (h : ∀ i ∈ s, IsReal (f i)) : IsReal (∑ i ∈ s, f i) := by
  classical
  induction s using Finset.induction_on with
  | empty => simpa using zero
  | insert a s ha ih =>
    rw [Finset.sum_insert ha]
    exact add (h a (Finset.mem_insert_self a s)) (ih fun i hi => h i (Finset.mem_insert_of_mem hi))

/-- A quotient by a nonzero real. -/
theorem div {x : EReal} (hx : IsReal x) {n : ℝ} (hn : n ≠ 0) : IsReal (Ideal.div x (n : EReal)) := by
  rw [Ideal.div_coe hn]; exact mul hx (coe _)

/-- The reciprocal square root of a positive real. -/
theorem rsqrt_pos {r : ℝ} (h : 0 < r) : IsReal (Ideal.rsqrt (r : EReal)) := by
  rw [Ideal.rsqrt_coe, if_neg (not_lt.mpr h.le), if_neg h.ne']; exact coe _

end IsReal

/-! ## Whole arrays -/

/-- Every entry is a real number. -/
def AllReal {ι : Type} (v : ι → EReal) : Prop := ∀ i, IsReal (v i)

namespace AllReal

variable {ι κ : Type}

theorem const {x : EReal} (hx : IsReal x) : AllReal (fun _ : ι => x) := fun _ => hx

/-- A read through any index map. -/
theorem comp {v : ι → EReal} (hv : AllReal v) (e : κ → ι) : AllReal (fun j => v (e j)) := fun j => hv (e j)

theorem add {u v : ι → EReal} (hu : AllReal u) (hv : AllReal v) : AllReal (fun i => u i + v i) := fun i => (hu i).add (hv i)
theorem sub {u v : ι → EReal} (hu : AllReal u) (hv : AllReal v) : AllReal (fun i => u i - v i) := fun i => (hu i).sub (hv i)
theorem mul {u v : ι → EReal} (hu : AllReal u) (hv : AllReal v) : AllReal (fun i => u i * v i) := fun i => (hu i).mul (hv i)
theorem max {u v : ι → EReal} (hu : AllReal u) (hv : AllReal v) : AllReal (fun i => Max.max (u i) (v i)) := fun i => (hu i).max (hv i)

/-- Layout operations read the operand through an index map. -/
theorem broadcastInDim {s t : Shape} (dims : Fin s.rank → Fin t.rank) (h : s.BroadcastsInDim t dims) {x : s.Idx → EReal}
    (hx : AllReal x) : AllReal (Idealize.ShloMosaic.broadcastInDim t dims h x) := fun _ => hx _

theorem broadcastTo {s t : Shape} (h : s.Broadcasts t) {x : s.Idx → EReal} (hx : AllReal x) :
    AllReal (Idealize.ShloMosaic.broadcastTo t x h) := fun _ => hx _

theorem shapeCast {s t : Shape} (h : s.ShapeCasts t) {x : s.Idx → EReal} (hx : AllReal x) :
    AllReal (Idealize.ShloMosaic.shapeCast t x h) := fun _ => hx _

theorem gather {s si t : Shape} {w : Nat} (d : GatherDims s si t) {x : s.Idx → EReal} (idx : IVec si w) (hx : AllReal x) :
    AllReal (Host.gather d x idx) := fun _ => hx _

/-- The entrywise operations on arrays. -/
theorem vaddf {s : Shape} {φ : FTy} {x y : FVec Ideal s φ} (hx : AllReal x) (hy : AllReal y) :
    AllReal (Idealize.ShloMosaic.addf x y) := fun i => (hx i).add (hy i)
theorem vsubf {s : Shape} {φ : FTy} {x y : FVec Ideal s φ} (hx : AllReal x) (hy : AllReal y) :
    AllReal (Idealize.ShloMosaic.subf x y) := fun i => (hx i).sub (hy i)
theorem vmulf {s : Shape} {φ : FTy} {x y : FVec Ideal s φ} (hx : AllReal x) (hy : AllReal y) :
    AllReal (Idealize.ShloMosaic.mulf x y) := fun i => (hx i).mul (hy i)
theorem vmaximumf {s : Shape} {φ : FTy} {x y : FVec Ideal s φ} (hx : AllReal x) (hy : AllReal y) :
    AllReal (Idealize.ShloMosaic.maximumf x y) := fun i => (hx i).max (hy i)

/-- The host's product of two arrays of reals: every entry is a finite sum of products. -/
theorem dotGeneral {sl sr so : Shape} {φ₁ φ₂ : FTy} (d : DotDims sl sr so) (prec : Option ContractPrecision) (sched : HostSchedule)
    {lhs : FVec Ideal sl φ₁} {rhs : FVec Ideal sr φ₂} (hl : AllReal lhs) (hr : AllReal rhs) :
    AllReal (FloatOps.dotGeneral d prec sched lhs rhs) := fun j => by
  rw [Ideal.dotGeneral_apply]
  exact IsReal.sum _ _ fun k _ => (hl _).mul (hr _)

/-- A scatter that adds real updates onto an array of reals: every entry is the old entry plus a finite sum of updates. -/
theorem scatterAdd {s si su : Shape} {φ : FTy} {w : Nat} (d : ScatterDims s si su) (sched : HostSchedule)
    {x : FVec Ideal s φ} (idx : IVec si w) {upd : FVec Ideal su φ} (hx : AllReal x) (hu : AllReal upd) :
    AllReal (FloatOps.hostScatterAdd d sched x idx upd) := fun i => by
  rw [Ideal.hostScatterAdd_def]
  exact (hx i).add (IsReal.sum _ _ fun j _ => hu j)

/-- The host's sum over axes, from a real initial value. -/
theorem hostReduceAdd {s t : Shape} {φ : FTy} (axes : List (Fin s.rank)) (h : s.ReducesTo axes t) (sched : HostSchedule)
    {v : FVec Ideal s φ} {init : Ideal φ} (hv : AllReal v) (hi : IsReal init) :
    AllReal (FloatOps.hostReduceAdd axes h sched v init) := fun j => by
  rw [Ideal.hostReduceAdd_def]
  exact hi.add (IsReal.sum _ _ fun i _ => hv i)

end AllReal

/-! ## Nonnegative reals: a count -/

/-- An extended real that is a nonnegative real number. -/
def IsNonneg (x : EReal) : Prop := ∃ r : ℝ, 0 ≤ r ∧ x = (r : EReal)

namespace IsNonneg

theorem add {x y : EReal} (hx : IsNonneg x) (hy : IsNonneg y) : IsNonneg (x + y) := by
  obtain ⟨a, ha, rfl⟩ := hx; obtain ⟨b, hb, rfl⟩ := hy
  exact ⟨a + b, add_nonneg ha hb, (EReal.coe_add a b).symm⟩

theorem sum {ι : Type} (s : Finset ι) (f : ι → EReal) (h : ∀ i ∈ s, IsNonneg (f i)) : IsNonneg (∑ i ∈ s, f i) := by
  classical
  induction s using Finset.induction_on with
  | empty => exact ⟨0, le_refl _, by simp⟩
  | insert a s ha ih =>
    rw [Finset.sum_insert ha]
    exact add (h a (Finset.mem_insert_self a s)) (ih fun i hi => h i (Finset.mem_insert_of_mem hi))

/-- A scatter that adds nonnegative updates onto nonnegative entries: a count of edges is one. -/
theorem scatterAdd {s si su : Shape} {φ : FTy} {w : Nat} (d : ScatterDims s si su) (sched : HostSchedule)
    {x : FVec Ideal s φ} (idx : IVec si w) {upd : FVec Ideal su φ} (hx : ∀ i, IsNonneg (x i)) (hu : ∀ j, IsNonneg (upd j)) (i : s.Idx) :
    IsNonneg (FloatOps.hostScatterAdd d sched x idx upd i) := by
  rw [Ideal.hostScatterAdd_def]
  exact (hx i).add (sum _ _ fun j _ => hu j)

end IsNonneg

/-! ## The two spellings of the variance -/

variable {ι : Type} [Fintype ι]

/-- Over the reals: the mean of the squared deviations is the mean of the squares minus the squared mean. -/
theorem real_moments (r : ι → ℝ) (n : ℝ) (hn : (Fintype.card ι : ℝ) = n) (h0 : n ≠ 0) :
    (∑ i, (r i - (∑ i, r i) * (1 / n)) * (r i - (∑ i, r i) * (1 / n))) * (1 / n)
      = (∑ i, r i * r i) * (1 / n) - ((∑ i, r i) * (1 / n)) * ((∑ i, r i) * (1 / n)) := by
  set S := ∑ i, r i with hS
  have h1 : ∑ i, (r i - S * (1 / n)) * (r i - S * (1 / n))
      = ∑ i, r i * r i - 2 * (S * (1 / n)) * S + n * ((S * (1 / n)) * (S * (1 / n))) := by
    have : ∀ i, (r i - S * (1 / n)) * (r i - S * (1 / n))
        = r i * r i - 2 * (S * (1 / n)) * r i + (S * (1 / n)) * (S * (1 / n)) := fun i => by ring
    simp only [this, Finset.sum_add_distrib, Finset.sum_sub_distrib, ← Finset.mul_sum, Finset.sum_const, Finset.card_univ,
      nsmul_eq_mul, hn, ← hS]
    ring
  rw [h1]
  field_simp
  ring

/-- The sum of the squared deviations of reals is a nonnegative real. -/
theorem real_dev_nonneg (r : ι → ℝ) (μ : ℝ) : 0 ≤ ∑ i, (r i - μ) * (r i - μ) :=
  Finset.sum_nonneg fun i _ => mul_self_nonneg _

/-- On the extended reals, for real entries: the mean of the squared deviations from the mean is the mean of the
    squares minus the squared mean. -/
theorem moments (x : ι → EReal) (hx : AllReal x) (n : ℝ) (hn : (Fintype.card ι : ℝ) = n) (h0 : n ≠ 0) :
    Ideal.div (∑ i, (x i - Ideal.div (∑ i, x i) n) * (x i - Ideal.div (∑ i, x i) n)) n
      = Ideal.div (∑ i, x i * x i) n - Ideal.div (∑ i, x i) n * Ideal.div (∑ i, x i) n := by
  choose r hr using hx
  obtain rfl : x = fun i => (r i : EReal) := funext hr
  simp only [Ideal.div_coe h0, ← coe_sum, ← EReal.coe_mul, ← EReal.coe_sub]
  exact congrArg _ (real_moments r n hn h0)

/-- For real entries the mean of the squared deviations plus a positive real has a real reciprocal square root. -/
theorem rsqrt_var_isReal (x : ι → EReal) (hx : AllReal x) (n : ℝ) (hn : (Fintype.card ι : ℝ) = n) (h0 : n ≠ 0)
    {e : ℝ} (he : 0 < e) :
    IsReal (Ideal.rsqrt (Ideal.div (∑ i, (x i - Ideal.div (∑ i, x i) n) * (x i - Ideal.div (∑ i, x i) n)) n + (e : EReal))) := by
  choose r hr using hx
  obtain rfl : x = fun i => (r i : EReal) := funext hr
  have hnpos : 0 < n := by
    have : (0 : ℝ) ≤ n := hn ▸ Nat.cast_nonneg _
    exact lt_of_le_of_ne this (Ne.symm h0)
  simp only [Ideal.div_coe h0, ← coe_sum, ← EReal.coe_mul, ← EReal.coe_sub, ← EReal.coe_add]
  refine IsReal.rsqrt_pos ?_
  have := real_dev_nonneg r ((∑ i, r i) * (1 / n))
  have h2 : 0 ≤ (∑ i, (r i - (∑ i, r i) * (1 / n)) * (r i - (∑ i, r i) * (1 / n))) * (1 / n) :=
    mul_nonneg this (by positivity)
  linarith

/-- The mean of real entries is real. -/
theorem mean_isReal (x : ι → EReal) (hx : AllReal x) (n : ℝ) (h0 : n ≠ 0) : IsReal (Ideal.div (∑ i, x i) n) :=
  (IsReal.sum _ _ fun i _ => hx i).div h0

end Cert.LibRealEntries

end
-- ==== Proof.LibRealSums.lean ====
/-
  A real factor and a finite sum of real entries, on the extended reals.

  On the extended reals a product distributes over a sum only away from the infinities: (+inf) * (1 + (-1)) is 0 while
  (+inf) * 1 + (+inf) * (-1) is not defined as a number. When the factor and every summand are real numbers the law is the
  real one, carried along the inclusion of the reals, which commutes with products and with finite sums.
-/
import proofs.«173509_j89172111000085_2_alg».proof.Proof.LibRealEntries

noncomputable section

open scoped BigOperators

namespace Cert.LibRealSums

open Cert.LibRealEntries

/-- A real factor distributes over a finite sum of real entries: a * (sum of u i) = sum of a * u i. -/
theorem mul_sum_of_real {ι : Type} (s : Finset ι) {a : EReal} (ha : IsReal a) (u : ι → EReal) (hu : ∀ i, IsReal (u i)) :
    a * ∑ i ∈ s, u i = ∑ i ∈ s, a * u i := by
  obtain ⟨a, rfl⟩ := ha
  choose r hr using hu
  obtain rfl : u = fun i => ((r i : ℝ) : EReal) := funext hr
  rw [← coe_sum, ← EReal.coe_mul, Finset.mul_sum, coe_sum]
  simp only [EReal.coe_mul]

/-- The same with the factor on the right. -/
theorem sum_mul_of_real {ι : Type} (s : Finset ι) {a : EReal} (ha : IsReal a) (u : ι → EReal) (hu : ∀ i, IsReal (u i)) :
    (∑ i ∈ s, u i) * a = ∑ i ∈ s, u i * a := by
  rw [mul_comm, mul_sum_of_real s ha u hu]
  exact Finset.sum_congr rfl fun i _ => mul_comm _ _

end Cert.LibRealSums

end
-- ==== Proof.Spec.lean ====
/-
  The posterior step of a mixture model over neighbourhoods, for ONE sample, on the extended reals.

  A sample carries, for each layer l (5), arc a (6) and state k (20), a statistic x l a k. Its neighbourhood total on
  (l, a) is the sum over k, with an EMPTY neighbourhood (total zero) counted as one so that the quotient below is
  defined. The responsibility of the transition (c, k) on (l, a) is

      rterm l a c k = (tr l a c k * x l a k) / total l a,

  and the posterior of state c weighs the sums over k of the responsibilities by the layer and arc weights. The
  two programs spell that weighting differently: one multiplies by the product of the two weights inside both sums,
  the other multiplies by the arc weight inside the sum over arcs and by the layer weight outside it. On the extended
  reals a product distributes over a sum only away from the infinities, so the two agree when every entry is a real
  number, which is what `pq_eq` says.
-/
import Idealize.ShloMosaic.PureOps.Ideal.Laws
import proofs.«173509_j89172111000085_2_alg».proof.Proof.LibRealEntries
import proofs.«173509_j89172111000085_2_alg».proof.Proof.LibRealSums

noncomputable section

open scoped BigOperators

namespace Cert.Cgmm

open Idealize.ShloMosaic Cert.LibRealEntries Cert.LibRealSums

/-- A neighbourhood total with the empty neighbourhood counted as one: the two float patterns are those of 0 and 1. -/
def fixTotal (s : EReal) : EReal :=
  Scalar.select (Ideal.cmp .oeq s (Ideal.ofBits .f32 0x00000000#32)) (Ideal.ofBits .f32 0x3F800000#32) s

/-- The neighbourhood total on (l, a). -/
def total (x : Fin 5 → Fin 6 → Fin 20 → EReal) (l : Fin 5) (a : Fin 6) : EReal := ∑ k : Fin 20, x l a k

/-- The responsibility of transition (c, k) on (l, a). -/
def rterm (x : Fin 5 → Fin 6 → Fin 20 → EReal) (tr : Fin 5 → Fin 6 → Fin 20 → Fin 20 → EReal)
    (l : Fin 5) (a : Fin 6) (c k : Fin 20) : EReal :=
  Ideal.div (tr l a c k * x l a k) (fixTotal (total x l a))

/-- The responsibilities of state c on (l, a), summed over k. -/
def rsum (x : Fin 5 → Fin 6 → Fin 20 → EReal) (tr : Fin 5 → Fin 6 → Fin 20 → Fin 20 → EReal)
    (l : Fin 5) (a : Fin 6) (c : Fin 20) : EReal := ∑ k : Fin 20, rterm x tr l a c k

/-- The weighted responsibility: the transition posterior's entry. -/
def post (x : Fin 5 → Fin 6 → Fin 20 → EReal) (co : Fin 5 → Fin 6 → EReal) (tr : Fin 5 → Fin 6 → Fin 20 → Fin 20 → EReal)
    (l : Fin 5) (a : Fin 6) (c k : Fin 20) : EReal := co l a * rterm x tr l a c k

/-- The posterior of state c with ONE combined weight per (l, a), inside both sums. -/
def pqJoint (x : Fin 5 → Fin 6 → Fin 20 → EReal) (co : Fin 5 → Fin 6 → EReal) (tr : Fin 5 → Fin 6 → Fin 20 → Fin 20 → EReal)
    (c : Fin 20) : EReal := ∑ l : Fin 5, ∑ a : Fin 6, co l a * rsum x tr l a c

/-- The posterior of state c with the arc weight inside the sum over arcs and the layer weight outside it. -/
def pqNested (x : Fin 5 → Fin 6 → Fin 20 → EReal) (ls : Fin 5 → EReal) (as : Fin 5 → Fin 6 → EReal)
    (tr : Fin 5 → Fin 6 → Fin 20 → Fin 20 → EReal) (c : Fin 20) : EReal :=
  ∑ l : Fin 5, ls l * ∑ a : Fin 6, as l a * rsum x tr l a c

/-- The pattern of 1 denotes 1. -/
theorem ofBits_one : Ideal.ofBits .f32 0x3F800000#32 = ((1 : ℝ) : EReal) := by
  simp [Ideal.ofBits, Ideal.ieee, -EReal.coe_mul]; norm_num

/-- A real total, fixed, is a NONZERO real: 1 when the total is 0, the total otherwise. -/
theorem fixTotal_real {s : EReal} (hs : IsReal s) : ∃ n : ℝ, n ≠ 0 ∧ fixTotal s = (n : EReal) := by
  obtain ⟨r, rfl⟩ := hs
  unfold fixTotal
  rw [Ideal.ofBits_zero_f32, ofBits_one]
  by_cases h : r = 0
  · subst h
    refine ⟨1, one_ne_zero, ?_⟩
    simp [Ideal.cmp, Scalar.select]
  · refine ⟨r, h, ?_⟩
    have h' : ¬ ((r : EReal) = 0) := fun e => h (by exact_mod_cast e)
    simp [Ideal.cmp, Scalar.select, h']

section Real

variable {x : Fin 5 → Fin 6 → Fin 20 → EReal} {tr : Fin 5 → Fin 6 → Fin 20 → Fin 20 → EReal}

theorem total_real (hx : ∀ l a k, IsReal (x l a k)) (l : Fin 5) (a : Fin 6) : IsReal (total x l a) :=
  IsReal.sum _ _ fun k _ => hx l a k

theorem rterm_real (hx : ∀ l a k, IsReal (x l a k)) (htr : ∀ l a c k, IsReal (tr l a c k)) (l : Fin 5) (a : Fin 6) (c k : Fin 20) :
    IsReal (rterm x tr l a c k) := by
  obtain ⟨n, hn, e⟩ := fixTotal_real (total_real hx l a)
  unfold rterm
  rw [e]
  exact IsReal.div ((htr l a c k).mul (hx l a k)) hn

theorem rsum_real (hx : ∀ l a k, IsReal (x l a k)) (htr : ∀ l a c k, IsReal (tr l a c k)) (l : Fin 5) (a : Fin 6) (c : Fin 20) :
    IsReal (rsum x tr l a c) :=
  IsReal.sum _ _ fun k _ => rterm_real hx htr l a c k

/-- THE LAW: with real entries throughout, the combined weight inside both sums is the layer weight outside the sum over
    arcs and the arc weight inside it. -/
theorem pq_eq (hx : ∀ l a k, IsReal (x l a k)) (htr : ∀ l a c k, IsReal (tr l a c k))
    {ls : Fin 5 → EReal} {as : Fin 5 → Fin 6 → EReal} (hls : ∀ l, IsReal (ls l)) (has : ∀ l a, IsReal (as l a)) (c : Fin 20) :
    pqJoint x (fun l a => ls l * as l a) tr c = pqNested x ls as tr c := by
  unfold pqJoint pqNested
  refine Finset.sum_congr rfl fun l _ => ?_
  rw [mul_sum_of_real _ (hls l) _ fun a => (has l a).mul (rsum_real hx htr l a c)]
  exact Finset.sum_congr rfl fun a _ => mul_assoc _ _ _

end Real

end Cert.Cgmm

end
-- ==== Proof.SampleLayout.lean ====
/-
  A batch of N samples, each with 5 layers, 6 arcs and 20 states, laid out flat.

  A sample's statistics [5, 6, 20] fill a row of 600 entries, the entry (l, a, k) at position (l*6 + a)*20 + k; its
  transition terms [5, 6, 20, 20] fill a row of 12000, the entry (l, a, c, k) at ((l*6 + a)*20 + c)*20 + k. Both
  programs move between the flat rows and the coordinate form by row-major reshapes, and spread the smaller arrays over
  the larger ones by broadcasts along unit axes. Each lemma here reads one such operation at an index given by its
  coordinates; each sum along one axis, on the extended reals, is read as the sum over that axis's coordinate.
  The number of samples N is any: the same lemmas serve a block of rows and the whole batch.
-/
import Idealize.ShloMosaic.Lib.ValueIdx
import Idealize.ShloMosaic.Lib.Pipeline.Value
import Idealize.ShloMosaic.PureOps.Ideal.Laws

noncomputable section

open scoped BigOperators

namespace Cert.Cgmm

open Idealize.ShloMosaic Idealize.ShloMosaic.ValueIdx

/-! ## Flat positions -/

/-- The position of (l, a, k) in a sample's row of 600 statistics. -/
def pos3 (l : Fin 5) (a : Fin 6) (k : Fin 20) : Fin 600 := ⟨(l.val * 6 + a.val) * 20 + k.val, by omega⟩

/-- The position of (l, a, c, k) in a sample's row of 12000 transition terms. -/
def pos4 (l : Fin 5) (a : Fin 6) (c k : Fin 20) : Fin 12000 := ⟨((l.val * 6 + a.val) * 20 + c.val) * 20 + k.val, by omega⟩

/-- The layer, arc and two states a position of the long row stands for. -/
def layerOf (j : Fin 12000) : Fin 5 := ⟨j.val / 2400, by omega⟩
def arcOf (j : Fin 12000) : Fin 6 := ⟨j.val / 400 % 6, by omega⟩
def stateOf (j : Fin 12000) : Fin 20 := ⟨j.val / 20 % 20, by omega⟩
def nextOf (j : Fin 12000) : Fin 20 := ⟨j.val % 20, by omega⟩

theorem pos4_of (j : Fin 12000) : pos4 (layerOf j) (arcOf j) (stateOf j) (nextOf j) = j :=
  Fin.ext (by show ((j.val / 2400 * 6 + j.val / 400 % 6) * 20 + j.val / 20 % 20) * 20 + j.val % 20 = j.val; omega)

theorem layerOf_pos4 (l : Fin 5) (a : Fin 6) (c k : Fin 20) : layerOf (pos4 l a c k) = l :=
  Fin.ext (by show (((l.val * 6 + a.val) * 20 + c.val) * 20 + k.val) / 2400 = l.val; omega)
theorem arcOf_pos4 (l : Fin 5) (a : Fin 6) (c k : Fin 20) : arcOf (pos4 l a c k) = a :=
  Fin.ext (by show (((l.val * 6 + a.val) * 20 + c.val) * 20 + k.val) / 400 % 6 = a.val; omega)
theorem stateOf_pos4 (l : Fin 5) (a : Fin 6) (c k : Fin 20) : stateOf (pos4 l a c k) = c :=
  Fin.ext (by show (((l.val * 6 + a.val) * 20 + c.val) * 20 + k.val) / 20 % 20 = c.val; omega)
theorem nextOf_pos4 (l : Fin 5) (a : Fin 6) (c k : Fin 20) : nextOf (pos4 l a c k) = k :=
  Fin.ext (by show (((l.val * 6 + a.val) * 20 + c.val) * 20 + k.val) % 20 = k.val; omega)

/-- The layer, arc and state a position of the short row stands for. -/
def layerOf3 (q : Fin 600) : Fin 5 := ⟨q.val / 120, by omega⟩
def arcOf3 (q : Fin 600) : Fin 6 := ⟨q.val / 20 % 6, by omega⟩
def stateOf3 (q : Fin 600) : Fin 20 := ⟨q.val % 20, by omega⟩

theorem pos3_of (q : Fin 600) : pos3 (layerOf3 q) (arcOf3 q) (stateOf3 q) = q :=
  Fin.ext (by show (q.val / 120 * 6 + q.val / 20 % 6) * 20 + q.val % 20 = q.val; omega)

/-! ## Arrays read by coordinates -/

/-- Row r of an array of flat statistics rows, read by (layer, arc, state). -/
def rowStats {N : Nat} (x : (⟨2, ![N, 600]⟩ : Shape).Idx → EReal) (r : Fin N) : Fin 5 → Fin 6 → Fin 20 → EReal :=
  fun l a k => x (ix2 r (pos3 l a k))

/-- Sample n of an array of statistics [N, 5, 6, 20]. -/
def sampleStats {N : Nat} (x : (⟨4, ![N, 5, 6, 20]⟩ : Shape).Idx → EReal) (n : Fin N) : Fin 5 → Fin 6 → Fin 20 → EReal :=
  fun l a k => x (ix4 n l a k)

/-- The transition array read by coordinates. -/
def transOf (x : (⟨4, ![5, 6, 20, 20]⟩ : Shape).Idx → EReal) : Fin 5 → Fin 6 → Fin 20 → Fin 20 → EReal :=
  fun l a c k => x (ix4 l a c k)

/-- An array of one weight per (layer, arc), read by coordinates. -/
def weightOf (x : (⟨2, ![5, 6]⟩ : Shape).Idx → EReal) : Fin 5 → Fin 6 → EReal := fun l a => x (ix2 l a)

/-- The layer weights read by coordinate. -/
def layerWeight (x : (⟨1, ![5]⟩ : Shape).Idx → EReal) : Fin 5 → EReal := fun l => x (ix1 l)

section Layout

variable {α : Type} {N : Nat}

/-! ## Rows and coordinates -/

/-- Rows of 600 read as [N, 5, 6, 20]: the entry (r, l, a, k) is the row's entry at the position of (l, a, k). -/
theorem rows_as_coords3 (v : (⟨2, ![N, 600]⟩ : Shape).Idx → α) (h : (⟨2, ![N, 600]⟩ : Shape).ShapeCasts ⟨4, ![N, 5, 6, 20]⟩)
    (r : Fin N) (l : Fin 5) (a : Fin 6) (k : Fin 20) :
    shapeCast ⟨4, ![N, 5, 6, 20]⟩ v h (ix4 r l a k) = v (ix2 r (pos3 l a k)) :=
  shapeCast_apply v h _ _ (by
    rw [Shape.rowMajor_val_four, Shape.rowMajor_val_two]
    show r.val * 600 + ((l.val * 6 + a.val) * 20 + k.val) = ((r.val * 5 + l.val) * 6 + a.val) * 20 + k.val
    omega)

/-- [N, 5, 6, 20] read as rows of 600. -/
theorem coords3_as_rows (v : (⟨4, ![N, 5, 6, 20]⟩ : Shape).Idx → α) (h : (⟨4, ![N, 5, 6, 20]⟩ : Shape).ShapeCasts ⟨2, ![N, 600]⟩)
    (r : Fin N) (l : Fin 5) (a : Fin 6) (k : Fin 20) :
    shapeCast ⟨2, ![N, 600]⟩ v h (ix2 r (pos3 l a k)) = v (ix4 r l a k) :=
  shapeCast_apply v h _ _ (by
    rw [Shape.rowMajor_val_four, Shape.rowMajor_val_two]
    show ((r.val * 5 + l.val) * 6 + a.val) * 20 + k.val = r.val * 600 + ((l.val * 6 + a.val) * 20 + k.val)
    omega)

/-- [N, 5, 6, 20, 20] read as rows of 12000: the row's entry at position j is the entry of the coordinates j stands for. -/
theorem coords4_as_rows (v : (⟨5, ![N, 5, 6, 20, 20]⟩ : Shape).Idx → α)
    (h : (⟨5, ![N, 5, 6, 20, 20]⟩ : Shape).ShapeCasts ⟨2, ![N, 12000]⟩) (r : Fin N) (j : Fin 12000) :
    shapeCast ⟨2, ![N, 12000]⟩ v h (ix2 r j) = v (ix5 r (layerOf j) (arcOf j) (stateOf j) (nextOf j)) :=
  shapeCast_apply v h _ _ (by
    rw [Shape.rowMajor_val_five, Shape.rowMajor_val_two]
    show (((r.val * 5 + j.val / 2400) * 6 + j.val / 400 % 6) * 20 + j.val / 20 % 20) * 20 + j.val % 20 = r.val * 12000 + j.val
    omega)

/-- Rows of 12000 read as [N, 5, 6, 20, 20]. -/
theorem rows_as_coords4 (v : (⟨2, ![N, 12000]⟩ : Shape).Idx → α)
    (h : (⟨2, ![N, 12000]⟩ : Shape).ShapeCasts ⟨5, ![N, 5, 6, 20, 20]⟩) (r : Fin N) (l : Fin 5) (a : Fin 6) (c k : Fin 20) :
    shapeCast ⟨5, ![N, 5, 6, 20, 20]⟩ v h (ix5 r l a c k) = v (ix2 r (pos4 l a c k)) :=
  shapeCast_apply v h _ _ (by
    rw [Shape.rowMajor_val_five, Shape.rowMajor_val_two]
    show r.val * 12000 + (((l.val * 6 + a.val) * 20 + c.val) * 20 + k.val) = (((r.val * 5 + l.val) * 6 + a.val) * 20 + c.val) * 20 + k.val
    omega)

/-! ## Unit axes put in -/

/-- The statistics with a unit axis for the state c put in before the last axis. -/
theorem stats_unit_state (v : (⟨4, ![N, 5, 6, 20]⟩ : Shape).Idx → α)
    (h : (⟨4, ![N, 5, 6, 20]⟩ : Shape).ShapeCasts ⟨5, ![N, 5, 6, 1, 20]⟩) (r : Fin N) (l : Fin 5) (a : Fin 6) (z : Fin 1) (k : Fin 20) :
    shapeCast ⟨5, ![N, 5, 6, 1, 20]⟩ v h (ix5 r l a z k) = v (ix4 r l a k) :=
  shapeCast_apply v h _ _ (by
    have hz : z.val = 0 := by omega
    rw [Shape.rowMajor_val_five, Shape.rowMajor_val_four]
    show ((r.val * 5 + l.val) * 6 + a.val) * 20 + k.val = (((r.val * 5 + l.val) * 6 + a.val) * 1 + z.val) * 20 + k.val
    omega)

/-- The transition array with a leading unit axis for the sample. -/
theorem trans_unit_sample (v : (⟨4, ![5, 6, 20, 20]⟩ : Shape).Idx → α)
    (h : (⟨4, ![5, 6, 20, 20]⟩ : Shape).ShapeCasts ⟨5, ![1, 5, 6, 20, 20]⟩) (z : Fin 1) (l : Fin 5) (a : Fin 6) (c k : Fin 20) :
    shapeCast ⟨5, ![1, 5, 6, 20, 20]⟩ v h (ix5 z l a c k) = v (ix4 l a c k) :=
  shapeCast_apply v h _ _ (by
    have hz : z.val = 0 := by omega
    rw [Shape.rowMajor_val_five, Shape.rowMajor_val_four]
    show ((l.val * 6 + a.val) * 20 + c.val) * 20 + k.val = (((z.val * 5 + l.val) * 6 + a.val) * 20 + c.val) * 20 + k.val
    omega)

/-- The totals [N, 5, 6] with one trailing unit axis. -/
theorem totals_unit1 (v : (⟨3, ![N, 5, 6]⟩ : Shape).Idx → α)
    (h : (⟨3, ![N, 5, 6]⟩ : Shape).ShapeCasts ⟨4, ![N, 5, 6, 1]⟩) (r : Fin N) (l : Fin 5) (a : Fin 6) (z : Fin 1) :
    shapeCast ⟨4, ![N, 5, 6, 1]⟩ v h (ix4 r l a z) = v (ix3 r l a) :=
  shapeCast_apply v h _ _ (by
    have hz : z.val = 0 := by omega
    rw [Shape.rowMajor_val_four, Shape.rowMajor_val_three]
    show (r.val * 5 + l.val) * 6 + a.val = ((r.val * 5 + l.val) * 6 + a.val) * 1 + z.val
    omega)

/-- The totals [N, 5, 6, 1] with a second trailing unit axis. -/
theorem totals_unit2 (v : (⟨4, ![N, 5, 6, 1]⟩ : Shape).Idx → α)
    (h : (⟨4, ![N, 5, 6, 1]⟩ : Shape).ShapeCasts ⟨5, ![N, 5, 6, 1, 1]⟩) (r : Fin N) (l : Fin 5) (a : Fin 6) (z z' : Fin 1) :
    shapeCast ⟨5, ![N, 5, 6, 1, 1]⟩ v h (ix5 r l a z z') = v (ix4 r l a (0 : Fin 1)) :=
  shapeCast_apply v h _ _ (by
    have hz : z.val = 0 := by omega
    have hz' : z'.val = 0 := by omega
    rw [Shape.rowMajor_val_five, Shape.rowMajor_val_four]
    show ((r.val * 5 + l.val) * 6 + a.val) * 1 + 0 = (((r.val * 5 + l.val) * 6 + a.val) * 1 + z.val) * 1 + z'.val
    omega)

/-- The weights [5, 6] as [1, 5, 6, 1]. -/
theorem weights_unit4 (v : (⟨2, ![5, 6]⟩ : Shape).Idx → α)
    (h : (⟨2, ![5, 6]⟩ : Shape).ShapeCasts ⟨4, ![1, 5, 6, 1]⟩) (z : Fin 1) (l : Fin 5) (a : Fin 6) (z' : Fin 1) :
    shapeCast ⟨4, ![1, 5, 6, 1]⟩ v h (ix4 z l a z') = v (ix2 l a) :=
  shapeCast_apply v h _ _ (by
    have hz : z.val = 0 := by omega
    have hz' : z'.val = 0 := by omega
    rw [Shape.rowMajor_val_four, Shape.rowMajor_val_two]
    show l.val * 6 + a.val = ((z.val * 5 + l.val) * 6 + a.val) * 1 + z'.val
    omega)

/-- The weights [5, 6] as [1, 5, 6, 1, 1]. -/
theorem weights_unit5 (v : (⟨2, ![5, 6]⟩ : Shape).Idx → α)
    (h : (⟨2, ![5, 6]⟩ : Shape).ShapeCasts ⟨5, ![1, 5, 6, 1, 1]⟩) (z : Fin 1) (l : Fin 5) (a : Fin 6) (z' z'' : Fin 1) :
    shapeCast ⟨5, ![1, 5, 6, 1, 1]⟩ v h (ix5 z l a z' z'') = v (ix2 l a) :=
  shapeCast_apply v h _ _ (by
    have hz : z.val = 0 := by omega
    have hz' : z'.val = 0 := by omega
    have hz'' : z''.val = 0 := by omega
    rw [Shape.rowMajor_val_five, Shape.rowMajor_val_two]
    show l.val * 6 + a.val = (((z.val * 5 + l.val) * 6 + a.val) * 1 + z'.val) * 1 + z''.val
    omega)

/-! ## Spreading along unit axes -/

/-- The statistics spread over the state c. -/
theorem spread_state (v : (⟨5, ![N, 5, 6, 1, 20]⟩ : Shape).Idx → α)
    (h : (⟨5, ![N, 5, 6, 1, 20]⟩ : Shape).Broadcasts ⟨5, ![N, 5, 6, 20, 20]⟩) (r : Fin N) (l : Fin 5) (a : Fin 6) (c k : Fin 20) :
    broadcastTo ⟨5, ![N, 5, 6, 20, 20]⟩ v h (ix5 r l a c k) = v (ix5 r l a (0 : Fin 1) k) := by
  refine broadcastTo_apply v h (ix5 r l a c k) (ix5 r l a (0 : Fin 1) k) fun ax => ?_
  match ax with
  | ⟨0, _⟩ =>
    show r.val = if N = 1 then 0 else r.val
    split
    · have := r.isLt; omega
    · rfl
  | ⟨1, _⟩ => rfl
  | ⟨2, _⟩ => rfl
  | ⟨3, _⟩ => rfl
  | ⟨4, _⟩ => rfl

/-- The transition array spread over the samples. -/
theorem spread_sample (v : (⟨5, ![1, 5, 6, 20, 20]⟩ : Shape).Idx → α)
    (h : (⟨5, ![1, 5, 6, 20, 20]⟩ : Shape).Broadcasts ⟨5, ![N, 5, 6, 20, 20]⟩) (r : Fin N) (l : Fin 5) (a : Fin 6) (c k : Fin 20) :
    broadcastTo ⟨5, ![N, 5, 6, 20, 20]⟩ v h (ix5 r l a c k) = v (ix5 (0 : Fin 1) l a c k) := by
  refine broadcastTo_apply v h (ix5 r l a c k) (ix5 (0 : Fin 1) l a c k) fun ax => ?_
  match ax with
  | ⟨0, _⟩ => rfl
  | ⟨1, _⟩ => rfl
  | ⟨2, _⟩ => rfl
  | ⟨3, _⟩ => rfl
  | ⟨4, _⟩ => rfl

/-- The fixed totals spread over both states. -/
theorem spread_totals (v : (⟨5, ![N, 5, 6, 1, 1]⟩ : Shape).Idx → α)
    (h : (⟨5, ![N, 5, 6, 1, 1]⟩ : Shape).Broadcasts ⟨5, ![N, 5, 6, 20, 20]⟩) (r : Fin N) (l : Fin 5) (a : Fin 6) (c k : Fin 20) :
    broadcastTo ⟨5, ![N, 5, 6, 20, 20]⟩ v h (ix5 r l a c k) = v (ix5 r l a (0 : Fin 1) (0 : Fin 1)) := by
  refine broadcastTo_apply v h (ix5 r l a c k) (ix5 r l a (0 : Fin 1) (0 : Fin 1)) fun ax => ?_
  match ax with
  | ⟨0, _⟩ =>
    show r.val = if N = 1 then 0 else r.val
    split
    · have := r.isLt; omega
    · rfl
  | ⟨1, _⟩ => rfl
  | ⟨2, _⟩ => rfl
  | ⟨3, _⟩ => rfl
  | ⟨4, _⟩ => rfl

/-- The weights [1, 5, 6, 1] spread over samples and states. -/
theorem spread_weights4 (v : (⟨4, ![1, 5, 6, 1]⟩ : Shape).Idx → α)
    (h : (⟨4, ![1, 5, 6, 1]⟩ : Shape).Broadcasts ⟨4, ![N, 5, 6, 20]⟩) (r : Fin N) (l : Fin 5) (a : Fin 6) (c : Fin 20) :
    broadcastTo ⟨4, ![N, 5, 6, 20]⟩ v h (ix4 r l a c) = v (ix4 (0 : Fin 1) l a (0 : Fin 1)) := by
  refine broadcastTo_apply v h (ix4 r l a c) (ix4 (0 : Fin 1) l a (0 : Fin 1)) fun ax => ?_
  match ax with
  | ⟨0, _⟩ => rfl
  | ⟨1, _⟩ => rfl
  | ⟨2, _⟩ => rfl
  | ⟨3, _⟩ => rfl

/-- The weights [1, 5, 6, 1, 1] spread over samples and both states. -/
theorem spread_weights5 (v : (⟨5, ![1, 5, 6, 1, 1]⟩ : Shape).Idx → α)
    (h : (⟨5, ![1, 5, 6, 1, 1]⟩ : Shape).Broadcasts ⟨5, ![N, 5, 6, 20, 20]⟩) (r : Fin N) (l : Fin 5) (a : Fin 6) (c k : Fin 20) :
    broadcastTo ⟨5, ![N, 5, 6, 20, 20]⟩ v h (ix5 r l a c k) = v (ix5 (0 : Fin 1) l a (0 : Fin 1) (0 : Fin 1)) := by
  refine broadcastTo_apply v h (ix5 r l a c k) (ix5 (0 : Fin 1) l a (0 : Fin 1) (0 : Fin 1)) fun ax => ?_
  match ax with
  | ⟨0, _⟩ => rfl
  | ⟨1, _⟩ => rfl
  | ⟨2, _⟩ => rfl
  | ⟨3, _⟩ => rfl
  | ⟨4, _⟩ => rfl

end Layout

/-! ## Sums along one axis, on the extended reals -/

section Sums

variable {N : Nat} {φ : FTy}

/-- The sum over the state k of [N, 5, 6, 20]. -/
theorem sum_over_state3 (v : FVec Ideal ⟨4, ![N, 5, 6, 20]⟩ φ) (acc : BitVec φ.bits)
    (h : (⟨4, ![N, 5, 6, 20]⟩ : Shape).Reduces [(3 : Fin 4)] ⟨3, ![N, 5, 6]⟩) (hφ : FKind.Formats φ) (hacc : acc = FKind.add.neutral φ hφ)
    (r : Fin N) (l : Fin 5) (a : Fin 6) :
    multiReduction .add [(3 : Fin 4)] ⟨3, ![N, 5, 6]⟩ v acc h hφ hacc (ix3 r l a) = ∑ k : Fin 20, v (ix4 r l a k) := by
  refine (Ideal.multiReduction_add_single v acc h hφ hacc (ix3 r l a)).trans ?_
  refine Finset.sum_congr rfl fun k _ => congrArg v (funext fun ax => Fin.ext ?_)
  match ax with
  | ⟨0, _⟩ => rfl
  | ⟨1, _⟩ => rfl
  | ⟨2, _⟩ => rfl
  | ⟨3, _⟩ => rfl

/-- The sum over the state k of [N, 5, 6, 20, 20]. -/
theorem sum_over_next (v : FVec Ideal ⟨5, ![N, 5, 6, 20, 20]⟩ φ) (acc : BitVec φ.bits)
    (h : (⟨5, ![N, 5, 6, 20, 20]⟩ : Shape).Reduces [(4 : Fin 5)] ⟨4, ![N, 5, 6, 20]⟩) (hφ : FKind.Formats φ) (hacc : acc = FKind.add.neutral φ hφ)
    (r : Fin N) (l : Fin 5) (a : Fin 6) (c : Fin 20) :
    multiReduction .add [(4 : Fin 5)] ⟨4, ![N, 5, 6, 20]⟩ v acc h hφ hacc (ix4 r l a c) = ∑ k : Fin 20, v (ix5 r l a c k) := by
  refine (Ideal.multiReduction_add_single v acc h hφ hacc (ix4 r l a c)).trans ?_
  refine Finset.sum_congr rfl fun k _ => congrArg v (funext fun ax => Fin.ext ?_)
  match ax with
  | ⟨0, _⟩ => rfl
  | ⟨1, _⟩ => rfl
  | ⟨2, _⟩ => rfl
  | ⟨3, _⟩ => rfl
  | ⟨4, _⟩ => rfl

/-- The sum over the arcs of [N, 5, 6, 20]. -/
theorem sum_over_arc (v : FVec Ideal ⟨4, ![N, 5, 6, 20]⟩ φ) (acc : BitVec φ.bits)
    (h : (⟨4, ![N, 5, 6, 20]⟩ : Shape).Reduces [(2 : Fin 4)] ⟨3, ![N, 5, 20]⟩) (hφ : FKind.Formats φ) (hacc : acc = FKind.add.neutral φ hφ)
    (r : Fin N) (l : Fin 5) (c : Fin 20) :
    multiReduction .add [(2 : Fin 4)] ⟨3, ![N, 5, 20]⟩ v acc h hφ hacc (ix3 r l c) = ∑ a : Fin 6, v (ix4 r l a c) := by
  refine (Ideal.multiReduction_add_single v acc h hφ hacc (ix3 r l c)).trans ?_
  refine Finset.sum_congr rfl fun a _ => congrArg v (funext fun ax => Fin.ext ?_)
  match ax with
  | ⟨0, _⟩ => rfl
  | ⟨1, _⟩ => rfl
  | ⟨2, _⟩ => rfl
  | ⟨3, _⟩ => rfl

/-- The sum over the layers of [N, 5, 20]. -/
theorem sum_over_layer (v : FVec Ideal ⟨3, ![N, 5, 20]⟩ φ) (acc : BitVec φ.bits)
    (h : (⟨3, ![N, 5, 20]⟩ : Shape).Reduces [(1 : Fin 3)] ⟨2, ![N, 20]⟩) (hφ : FKind.Formats φ) (hacc : acc = FKind.add.neutral φ hφ)
    (r : Fin N) (c : Fin 20) :
    multiReduction .add [(1 : Fin 3)] ⟨2, ![N, 20]⟩ v acc h hφ hacc (ix2 r c) = ∑ l : Fin 5, v (ix3 r l c) := by
  refine (Ideal.multiReduction_add_single v acc h hφ hacc (ix2 r c)).trans ?_
  refine Finset.sum_congr rfl fun l _ => congrArg v (funext fun ax => Fin.ext ?_)
  match ax with
  | ⟨0, _⟩ => rfl
  | ⟨1, _⟩ => rfl
  | ⟨2, _⟩ => rfl

end Sums

end Cert.Cgmm

end
-- ==== Proof.BlockValue.lean ====
/-
  What the kernel's body computes on one block of 24 samples.

  The block holds 24 rows of 600 statistics; the body also reads the 5 x 6 weights and the transition array. For the
  sample in row r it forms that sample's responsibilities (Spec: `rterm`) from the row read by coordinates, stores them
  flat (position j of the long row holding the coordinates j stands for), stores them again scaled by the weights
  (`post`), and stores the posterior with the combined weight inside both sums (`pqJoint`).
-/
import proofs.«173509_j89172111000085_2_alg».proof.Proof.Gen.KernelIdeal.Skeleton
import proofs.«173509_j89172111000085_2_alg».proof.Proof.Spec
import proofs.«173509_j89172111000085_2_alg».proof.Proof.SampleLayout

noncomputable section

open scoped BigOperators

namespace Cert.Cgmm

open Idealize.ShloMosaic Idealize.ShloMosaic.ValueIdx Cert.KernelIdeal Cert.KernelIdeal.Gen

/-! ## The body's intermediate values, named -/

/-- The block's statistics by coordinates. -/
def blkStats (x0 : Vec Ideal S24x600 .f32) : FVec Ideal S24x5x6x20 .f32 :=
  shapeCast S24x5x6x20 (shapeCast S24x600 x0 shapeCasts_S24x600_S24x600) shapeCasts_S24x600_S24x5x6x20

/-- The neighbourhood totals, with a trailing unit axis. -/
def blkTotals (x0 : Vec Ideal S24x600 .f32) : FVec Ideal S24x5x6x1 .f32 :=
  shapeCast S24x5x6x1 (multiReduction .add [3] S24x5x6 (blkStats x0) 0x00000000#32 reduces_S24x5x6x20_S24x5x6 (.inl rfl) rfl)
    shapeCasts_S24x5x6_S24x5x6x1

/-- The totals with the empty neighbourhoods counted as one. -/
def blkFixed (x0 : Vec Ideal S24x600 .f32) : FVec Ideal S24x5x6x1 .f32 :=
  select (cmpf .oeq (blkTotals x0) (broadcast S24x5x6x1 (Scalar.ofBits .f32 0x00000000#32)))
    (broadcast S24x5x6x1 (Scalar.ofBits .f32 0x3F800000#32)) (blkTotals x0)

/-- The responsibilities of the block's samples. -/
def blkResp (x0 : Vec Ideal S24x600 .f32) (x3 : Vec Ideal S5x6x20x20 .f32) : FVec Ideal S24x5x6x20x20 .f32 :=
  divf
    (mulf
      (broadcastTo S24x5x6x20x20 (shapeCast S1x5x6x20x20 x3 shapeCasts_S5x6x20x20_S1x5x6x20x20) broadcasts_S1x5x6x20x20_S24x5x6x20x20)
      (broadcastTo S24x5x6x20x20 (shapeCast S24x5x6x1x20 (blkStats x0) shapeCasts_S24x5x6x20_S24x5x6x1x20) broadcasts_S24x5x6x1x20_S24x5x6x20x20))
    (broadcastTo S24x5x6x20x20 (shapeCast S24x5x6x1x1 (blkFixed x0) shapeCasts_S24x5x6x1_S24x5x6x1x1) broadcasts_S24x5x6x1x1_S24x5x6x20x20)

/-- The body's quotient IS that value. -/
theorem pay2_eq (x0 : Vec Ideal S24x600 .f32) (x3 : Vec Ideal S5x6x20x20 .f32) : k0_pay2 x0 x3 = blkResp x0 x3 := rfl

/-! ## Read at coordinates -/

theorem blkStats_apply (x0 : Vec Ideal S24x600 .f32) (r : Fin 24) (l : Fin 5) (a : Fin 6) (k : Fin 20) :
    blkStats x0 (ix4 r l a k) = rowStats x0 r l a k :=
  (rows_as_coords3 _ shapeCasts_S24x600_S24x5x6x20 r l a k).trans
    (congrFun (shapeCast_self x0 shapeCasts_S24x600_S24x600) _)

theorem blkTotals_apply (x0 : Vec Ideal S24x600 .f32) (r : Fin 24) (l : Fin 5) (a : Fin 6) (z : Fin 1) :
    blkTotals x0 (ix4 r l a z) = total (rowStats x0 r) l a :=
  (totals_unit1 _ shapeCasts_S24x5x6_S24x5x6x1 r l a z).trans
    ((sum_over_state3 (blkStats x0) _ reduces_S24x5x6x20_S24x5x6 _ _ r l a).trans
      (Finset.sum_congr rfl fun k _ => blkStats_apply x0 r l a k))

theorem blkFixed_apply (x0 : Vec Ideal S24x600 .f32) (r : Fin 24) (l : Fin 5) (a : Fin 6) (z : Fin 1) :
    blkFixed x0 (ix4 r l a z) = fixTotal (total (rowStats x0 r) l a) := by
  show fixTotal (blkTotals x0 (ix4 r l a z)) = _
  rw [blkTotals_apply]

theorem blkResp_apply (x0 : Vec Ideal S24x600 .f32) (x3 : Vec Ideal S5x6x20x20 .f32) (r : Fin 24) (l : Fin 5) (a : Fin 6) (c k : Fin 20) :
    blkResp x0 x3 (ix5 r l a c k) = rterm (rowStats x0 r) (transOf x3) l a c k := by
  unfold blkResp rterm
  rw [divf_apply, mulf_apply]
  refine congrArg₂ Ideal.div (congrArg₂ (· * ·) ?_ ?_) ?_
  · exact (spread_sample _ _ r l a c k).trans (trans_unit_sample x3 _ (0 : Fin 1) l a c k)
  · exact (spread_state _ _ r l a c k).trans ((stats_unit_state _ _ r l a (0 : Fin 1) k).trans (blkStats_apply x0 r l a k))
  · exact (spread_totals _ _ r l a c k).trans ((totals_unit2 _ _ r l a (0 : Fin 1) (0 : Fin 1)).trans (blkFixed_apply x0 r l a (0 : Fin 1)))

/-- The weights as the body spreads them over the five axes. -/
theorem weights5_apply (x1 : Vec Ideal S5x6 .f32) (r : Fin 24) (l : Fin 5) (a : Fin 6) (c k : Fin 20) :
    broadcastTo S24x5x6x20x20 (shapeCast S1x5x6x1x1 (k0_pay1 x1) shapeCasts_S5x6_S1x5x6x1x1) broadcasts_S1x5x6x1x1_S24x5x6x20x20 (ix5 r l a c k)
      = weightOf x1 l a :=
  (spread_weights5 _ _ r l a c k).trans ((weights_unit5 _ _ (0 : Fin 1) l a (0 : Fin 1) (0 : Fin 1)).trans
    (congrFun (shapeCast_self x1 shapeCasts_S5x6_S5x6) _))

/-- The weights as the body spreads them over the four axes. -/
theorem weights4_apply (x1 : Vec Ideal S5x6 .f32) (r : Fin 24) (l : Fin 5) (a : Fin 6) (c : Fin 20) :
    broadcastTo S24x5x6x20 (shapeCast S1x5x6x1 (k0_pay1 x1) shapeCasts_S5x6_S1x5x6x1) broadcasts_S1x5x6x1_S24x5x6x20 (ix4 r l a c)
      = weightOf x1 l a :=
  (spread_weights4 _ _ r l a c).trans ((weights_unit4 _ _ (0 : Fin 1) l a (0 : Fin 1)).trans
    (congrFun (shapeCast_self x1 shapeCasts_S5x6_S5x6) _))

/-! ## The three stored values -/

/-- The stored responsibilities: position j of row r holds the responsibility of the coordinates j stands for. -/
theorem pay3_apply (x0 : Vec Ideal S24x600 .f32) (x3 : Vec Ideal S5x6x20x20 .f32) (r : Fin 24) (j : Fin 12000) :
    k0_pay3 x0 x3 (ix2 r j) = rterm (rowStats x0 r) (transOf x3) (layerOf j) (arcOf j) (stateOf j) (nextOf j) := by
  unfold k0_pay3
  rw [pay2_eq]
  exact (coords4_as_rows _ shapeCasts_S24x5x6x20x20_S24x12000 r j).trans (blkResp_apply x0 x3 r _ _ _ _)

/-- The stored transition posterior: the responsibility scaled by the weight of its (layer, arc). -/
theorem pay5_apply (x0 : Vec Ideal S24x600 .f32) (x3 : Vec Ideal S5x6x20x20 .f32) (x1 : Vec Ideal S5x6 .f32) (r : Fin 24) (j : Fin 12000) :
    k0_pay5 x0 x3 x1 (ix2 r j) = post (rowStats x0 r) (weightOf x1) (transOf x3) (layerOf j) (arcOf j) (stateOf j) (nextOf j) := by
  unfold k0_pay5
  rw [pay2_eq]
  refine (coords4_as_rows _ shapeCasts_S24x5x6x20x20_S24x12000 r j).trans ?_
  rw [mulf_apply]
  unfold post
  exact congrArg₂ (· * ·) (weights5_apply x1 r _ _ _ _) (blkResp_apply x0 x3 r _ _ _ _)

/-- The stored posterior of state c: the combined weight inside the sums over arcs and layers. -/
theorem pay4_apply (x0 : Vec Ideal S24x600 .f32) (x3 : Vec Ideal S5x6x20x20 .f32) (x1 : Vec Ideal S5x6 .f32) (r : Fin 24) (c : Fin 20) :
    k0_pay4 x0 x3 x1 (ix2 r c) = pqJoint (rowStats x0 r) (weightOf x1) (transOf x3) c := by
  unfold k0_pay4
  rw [pay2_eq]
  unfold pqJoint
  refine (sum_over_layer _ _ reduces_S24x5x20_S24x20 _ _ r c).trans (Finset.sum_congr rfl fun l _ => ?_)
  refine (sum_over_arc _ _ reduces_S24x5x6x20_S24x5x20 _ _ r l c).trans (Finset.sum_congr rfl fun a _ => ?_)
  rw [mulf_apply]
  refine congrArg₂ (· * ·) (weights4_apply x1 r l a c) ?_
  unfold rsum
  exact (sum_over_next _ _ reduces_S24x5x6x20x20_S24x5x6x20 _ _ r l a c).trans
    (Finset.sum_congr rfl fun k _ => blkResp_apply x0 x3 r l a c k)

end Cert.Cgmm

end
-- ==== Proof.KernelArrays.lean ====
/-
  From blocks to arrays.

  The grid has 417 points; point t works on samples 24 t … 24 t + 23: it reads those rows of the (padded) statistics
  and the whole of the weights and of the transition array, and writes back rows 24 t … 24 t + 23 of each of its three
  arrays. So what a point writes back is its block of ONE function of the arrays the region finds — row n of a result
  depends on row n of the statistics only — and the blocks of the 417 points tile the 10008 rows (row n is in the block
  of point n / 24). Hence each array ends holding that function.
-/
import proofs.«173509_j89172111000085_2_alg».proof.Proof.Gen.KernelIdeal.Frame
import proofs.«173509_j89172111000085_2_alg».proof.Proof.BlockValue

set_option maxRecDepth 16384

noncomputable section

open scoped BigOperators

namespace Cert.Cgmm

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (m : (ℓ : Loc nD τ sig) → Buf (Elt Ideal) ℓ)

theorem zero2 : (![0, 0] : Fin 2 → Nat) = fun _ => 0 := funext fun a => by fin_cases a <;> rfl
theorem zero4 : (![0, 0, 0, 0] : Fin 4 → Nat) = fun _ => 0 := funext fun a => by fin_cases a <;> rfl

/-- The block indices, decided over the grid: the statistics and the three results move with the point along the
    rows, the weights and the transition array stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 4) = 0 ∧ win0_2.index t (1 : Fin 4) = 0 ∧ win0_2.index t (2 : Fin 4) = 0 ∧ win0_2.index t (3 : Fin 4) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

theorem pt_lt (t : Fin cfg0.N) : t.val < 417 := by
  have h := t.isLt
  have e : cfg0.N = 417 := N_0
  omega

/-- The sample that row r of point t's block is. -/
def sampleAt (t : Fin cfg0.N) (r : Fin 24) : Fin 10008 := ⟨t.val * 24 + r.val, by have := pt_lt t; omega⟩

/-! ## The three arrays as functions of what the region finds -/

/-- The responsibilities, one flat row per sample. -/
def respRows (X : S10008x600.Idx → EReal) (T : S5x6x20x20.Idx → EReal) : S10008x12000.Idx → EReal :=
  fun i => rterm (rowStats X (i 0)) (transOf T) (layerOf (i 1)) (arcOf (i 1)) (stateOf (i 1)) (nextOf (i 1))

/-- The transition posterior, one flat row per sample. -/
def postRows (X : S10008x600.Idx → EReal) (W : S5x6.Idx → EReal) (T : S5x6x20x20.Idx → EReal) : S10008x12000.Idx → EReal :=
  fun i => post (rowStats X (i 0)) (weightOf W) (transOf T) (layerOf (i 1)) (arcOf (i 1)) (stateOf (i 1)) (nextOf (i 1))

/-- The state posterior, one row of 20 per sample. -/
def pqRows (X : S10008x600.Idx → EReal) (W : S5x6.Idx → EReal) (T : S5x6x20x20.Idx → EReal) : S10008x20.Idx → EReal :=
  fun i => pqJoint (rowStats X (i 0)) (weightOf W) (transOf T) (i 1)

/-! ## The blocks a point reads -/

/-- Row r of the statistics block at point t is the row of sample 24 t + r. -/
theorem stats_block (c : Dev nD) (t : Fin cfg0.N) (r : Fin 24) :
    rowStats (iblk m c 0 t) r = rowStats (V m c main_v4 : S10008x600.Idx → EReal) (sampleAt t r) := by
  funext l a k
  show V m c main_v4 (((cfg0.win 0).blk t).view.emb (ix2 r (pos3 l a k))) = V m c main_v4 (ix2 (sampleAt t r) (pos3 l a k))
  obtain ⟨e0, e1, -⟩ := idx_facts t
  refine congrArg (V m c main_v4) (funext fun ax => Fin.ext ?_)
  match ax with
  | ⟨0, _⟩ => show win0_0.index t (0 : Fin 2) * 24 + 1 * r.val = t.val * 24 + r.val; omega
  | ⟨1, _⟩ => show win0_0.index t (1 : Fin 2) * 600 + 1 * (pos3 l a k).val = (pos3 l a k).val; omega

/-- The weights block is the whole weights array. -/
theorem weights_block (c : Dev nD) (t : Fin cfg0.N) : iblk m c 1 t = (V m c main_v2 : S5x6.Idx → EReal) := by
  funext y
  show V m c main_v2 (((cfg0.win 1).blk t).view.emb y) = V m c main_v2 y
  obtain ⟨-, -, e0, e1, -⟩ := idx_facts t
  refine congrArg (V m c main_v2) (funext fun ax => Fin.ext ?_)
  match ax with
  | ⟨0, _⟩ => show win0_1.index t (0 : Fin 2) * 5 + 1 * (y 0).val = (y 0).val; omega
  | ⟨1, _⟩ => show win0_1.index t (1 : Fin 2) * 6 + 1 * (y 1).val = (y 1).val; omega

/-- The transition block is the whole transition array. -/
theorem trans_block (c : Dev nD) (t : Fin cfg0.N) : iblk m c 2 t = (V m c main_arg3 : S5x6x20x20.Idx → EReal) := by
  funext y
  show V m c main_arg3 (((cfg0.win 2).blk t).view.emb y) = V m c main_arg3 y
  obtain ⟨-, -, -, -, e0, e1, e2, e3, -⟩ := idx_facts t
  refine congrArg (V m c main_arg3) (funext fun ax => Fin.ext ?_)
  match ax with
  | ⟨0, _⟩ => show win0_2.index t (0 : Fin 4) * 5 + 1 * (y 0).val = (y 0).val; omega
  | ⟨1, _⟩ => show win0_2.index t (1 : Fin 4) * 6 + 1 * (y 1).val = (y 1).val; omega
  | ⟨2, _⟩ => show win0_2.index t (2 : Fin 4) * 20 + 1 * (y 2).val = (y 2).val; omega
  | ⟨3, _⟩ => show win0_2.index t (3 : Fin 4) * 20 + 1 * (y 3).val = (y 3).val; omega

/-! ## Where a point's results go -/

theorem pq_place (t : Fin cfg0.N) (r : Fin 24) (q : Fin 20) :
    ((cfg0.win 3).blk t).view.emb (ix2 r q) = (ix2 (sampleAt t r) q : S10008x20.Idx) := by
  obtain ⟨-, -, -, -, -, -, -, -, e0, e1, -⟩ := idx_facts t
  refine funext fun ax => Fin.ext ?_
  match ax with
  | ⟨0, _⟩ => show win0_3.index t (0 : Fin 2) * 24 + 1 * r.val = t.val * 24 + r.val; omega
  | ⟨1, _⟩ => show win0_3.index t (1 : Fin 2) * 20 + 1 * q.val = q.val; omega

theorem post_place (t : Fin cfg0.N) (r : Fin 24) (j : Fin 12000) :
    ((cfg0.win 4).blk t).view.emb (ix2 r j) = (ix2 (sampleAt t r) j : S10008x12000.Idx) := by
  obtain ⟨-, -, -, -, -, -, -, -, -, -, e0, e1, -⟩ := idx_facts t
  refine funext fun ax => Fin.ext ?_
  match ax with
  | ⟨0, _⟩ => show win0_4.index t (0 : Fin 2) * 24 + 1 * r.val = t.val * 24 + r.val; omega
  | ⟨1, _⟩ => show win0_4.index t (1 : Fin 2) * 12000 + 1 * j.val = j.val; omega

theorem resp_place (t : Fin cfg0.N) (r : Fin 24) (j : Fin 12000) :
    ((cfg0.win 5).blk t).view.emb (ix2 r j) = (ix2 (sampleAt t r) j : S10008x12000.Idx) := by
  obtain ⟨-, -, -, -, -, -, -, -, -, -, -, -, e0, e1⟩ := idx_facts t
  refine funext fun ax => Fin.ext ?_
  match ax with
  | ⟨0, _⟩ => show win0_5.index t (0 : Fin 2) * 24 + 1 * r.val = t.val * 24 + r.val; omega
  | ⟨1, _⟩ => show win0_5.index t (1 : Fin 2) * 12000 + 1 * j.val = j.val; omega

/-! ## What a point writes back -/

theorem pq_flushed (c : Dev nD) (t : Fin cfg0.N) :
    (dats m 0 c).flushed 3 t = ((cfg0.win 3).blk t).view.read (Elt Ideal) (pqRows (V m c main_v4) (V m c main_v2) (V m c main_arg3)) := by
  show (cfg0.win 3).cut (grid0.coords t) ((dats m 0 c).after 3 t) = _
  rw [after0_3]
  unfold out0_3
  rw [View.canon_unit_zero zero2]
  simp only [View.ld_unit_zero (S := S24x600) zero2, View.ld_unit_zero (S := S5x6x20x20) zero4, View.ld_unit_zero (S := S5x6) zero2]
  funext y
  obtain ⟨r, q, rfl⟩ : ∃ (r : Fin 24) (q : Fin 20), y = ix2 r q := ⟨y 0, y 1, eq_ix2 y⟩
  show k0_pay4 (iblk m c 0 t) (iblk m c 2 t) (iblk m c 1 t) (ix2 r q)
    = pqRows (V m c main_v4) (V m c main_v2) (V m c main_arg3) (((cfg0.win 3).blk t).view.emb (ix2 r q))
  rw [pq_place t r q]
  refine (pay4_apply (iblk m c 0 t) (iblk m c 2 t) (iblk m c 1 t) r q).trans ?_
  rw [stats_block m c t r, weights_block m c t, trans_block m c t]
  rfl

theorem post_flushed (c : Dev nD) (t : Fin cfg0.N) :
    (dats m 0 c).flushed 4 t = ((cfg0.win 4).blk t).view.read (Elt Ideal) (postRows (V m c main_v4) (V m c main_v2) (V m c main_arg3)) := by
  show (cfg0.win 4).cut (grid0.coords t) ((dats m 0 c).after 4 t) = _
  rw [after0_4]
  unfold out0_4
  rw [View.canon_unit_zero zero2]
  simp only [View.ld_unit_zero (S := S24x600) zero2, View.ld_unit_zero (S := S5x6x20x20) zero4, View.ld_unit_zero (S := S5x6) zero2]
  funext y
  obtain ⟨r, j, rfl⟩ : ∃ (r : Fin 24) (j : Fin 12000), y = ix2 r j := ⟨y 0, y 1, eq_ix2 y⟩
  show k0_pay5 (iblk m c 0 t) (iblk m c 2 t) (iblk m c 1 t) (ix2 r j)
    = postRows (V m c main_v4) (V m c main_v2) (V m c main_arg3) (((cfg0.win 4).blk t).view.emb (ix2 r j))
  rw [post_place t r j]
  refine (pay5_apply (iblk m c 0 t) (iblk m c 2 t) (iblk m c 1 t) r j).trans ?_
  rw [stats_block m c t r, weights_block m c t, trans_block m c t]
  rfl

theorem resp_flushed (c : Dev nD) (t : Fin cfg0.N) :
    (dats m 0 c).flushed 5 t = ((cfg0.win 5).blk t).view.read (Elt Ideal) (respRows (V m c main_v4) (V m c main_arg3)) := by
  show (cfg0.win 5).cut (grid0.coords t) ((dats m 0 c).after 5 t) = _
  rw [after0_5]
  unfold out0_5
  rw [View.canon_unit_zero zero2]
  simp only [View.ld_unit_zero (S := S24x600) zero2, View.ld_unit_zero (S := S5x6x20x20) zero4]
  funext y
  obtain ⟨r, j, rfl⟩ : ∃ (r : Fin 24) (j : Fin 12000), y = ix2 r j := ⟨y 0, y 1, eq_ix2 y⟩
  show k0_pay3 (iblk m c 0 t) (iblk m c 2 t) (ix2 r j)
    = respRows (V m c main_v4) (V m c main_arg3) (((cfg0.win 5).blk t).view.emb (ix2 r j))
  rw [resp_place t r j]
  refine (pay3_apply (iblk m c 0 t) (iblk m c 2 t) r j).trans ?_
  rw [stats_block m c t r, trans_block m c t]
  rfl

/-! ## The blocks tile the rows -/

/-- The point whose block holds row n. -/
def pointOf (n : Nat) (h : n < 10008) : Fin cfg0.N := ⟨n / 24, by rw [show cfg0.N = 417 from N_0]; omega⟩

theorem pq_mem (t : Fin cfg0.N) (i : S10008x20.Idx) :
    i ∈ ((cfg0.win 3).blk t).view.set ↔ ∀ a : Fin 2, win0_3.index t a * S24x20.size a ≤ (i a).val ∧ (i a).val < win0_3.index t a * S24x20.size a + S24x20.size a := by
  show i ∈ ((View.whole main_v5_0).slice (win0_3.rect t)).set ↔ _
  rw [View.set_slice_whole, Rect.mem_set_unit]
  exact Iff.rfl

theorem post_mem (t : Fin cfg0.N) (i : S10008x12000.Idx) :
    i ∈ ((cfg0.win 4).blk t).view.set ↔ ∀ a : Fin 2, win0_4.index t a * S24x12000.size a ≤ (i a).val ∧ (i a).val < win0_4.index t a * S24x12000.size a + S24x12000.size a := by
  show i ∈ ((View.whole main_v5_1).slice (win0_4.rect t)).set ↔ _
  rw [View.set_slice_whole, Rect.mem_set_unit]
  exact Iff.rfl

theorem resp_mem (t : Fin cfg0.N) (i : S10008x12000.Idx) :
    i ∈ ((cfg0.win 5).blk t).view.set ↔ ∀ a : Fin 2, win0_5.index t a * S24x12000.size a ≤ (i a).val ∧ (i a).val < win0_5.index t a * S24x12000.size a + S24x12000.size a := by
  show i ∈ ((View.whole main_v5_2).slice (win0_5.rect t)).set ↔ _
  rw [View.set_slice_whole, Rect.mem_set_unit]
  exact Iff.rfl

theorem pq_cover (i : S10008x20.Idx) : ∃ t : Fin cfg0.N, (cfg0.win 3).flush t = true ∧ i ∈ ((cfg0.win 3).blk t).view.set := by
  have h0 : (i 0).val < 10008 := (i 0).isLt
  have h1 : (i 1).val < 20 := (i 1).isLt
  refine ⟨pointOf (i 0).val h0, flush0_3 _, ?_⟩
  rw [pq_mem]
  obtain ⟨-, -, -, -, -, -, -, -, e0, e1, -⟩ := idx_facts (pointOf (i 0).val h0)
  have ep : (pointOf (i 0).val h0).val = (i 0).val / 24 := rfl
  intro a
  match a with
  | ⟨0, _⟩ =>
    show win0_3.index (pointOf (i 0).val h0) (0 : Fin 2) * 24 ≤ (i 0).val ∧ (i 0).val < win0_3.index (pointOf (i 0).val h0) (0 : Fin 2) * 24 + 24
    omega
  | ⟨1, _⟩ =>
    show win0_3.index (pointOf (i 0).val h0) (1 : Fin 2) * 20 ≤ (i 1).val ∧ (i 1).val < win0_3.index (pointOf (i 0).val h0) (1 : Fin 2) * 20 + 20
    omega

theorem post_cover (i : S10008x12000.Idx) : ∃ t : Fin cfg0.N, (cfg0.win 4).flush t = true ∧ i ∈ ((cfg0.win 4).blk t).view.set := by
  have h0 : (i 0).val < 10008 := (i 0).isLt
  have h1 : (i 1).val < 12000 := (i 1).isLt
  refine ⟨pointOf (i 0).val h0, flush0_4 _, ?_⟩
  rw [post_mem]
  obtain ⟨-, -, -, -, -, -, -, -, -, -, e0, e1, -⟩ := idx_facts (pointOf (i 0).val h0)
  have ep : (pointOf (i 0).val h0).val = (i 0).val / 24 := rfl
  intro a
  match a with
  | ⟨0, _⟩ =>
    show win0_4.index (pointOf (i 0).val h0) (0 : Fin 2) * 24 ≤ (i 0).val ∧ (i 0).val < win0_4.index (pointOf (i 0).val h0) (0 : Fin 2) * 24 + 24
    omega
  | ⟨1, _⟩ =>
    show win0_4.index (pointOf (i 0).val h0) (1 : Fin 2) * 12000 ≤ (i 1).val ∧ (i 1).val < win0_4.index (pointOf (i 0).val h0) (1 : Fin 2) * 12000 + 12000
    omega

theorem resp_cover (i : S10008x12000.Idx) : ∃ t : Fin cfg0.N, (cfg0.win 5).flush t = true ∧ i ∈ ((cfg0.win 5).blk t).view.set := by
  have h0 : (i 0).val < 10008 := (i 0).isLt
  have h1 : (i 1).val < 12000 := (i 1).isLt
  refine ⟨pointOf (i 0).val h0, flush0_5 _, ?_⟩
  rw [resp_mem]
  obtain ⟨-, -, -, -, -, -, -, -, -, -, -, -, e0, e1⟩ := idx_facts (pointOf (i 0).val h0)
  have ep : (pointOf (i 0).val h0).val = (i 0).val / 24 := rfl
  intro a
  match a with
  | ⟨0, _⟩ =>
    show win0_5.index (pointOf (i 0).val h0) (0 : Fin 2) * 24 ≤ (i 0).val ∧ (i 0).val < win0_5.index (pointOf (i 0).val h0) (0 : Fin 2) * 24 + 24
    omega
  | ⟨1, _⟩ =>
    show win0_5.index (pointOf (i 0).val h0) (1 : Fin 2) * 12000 ≤ (i 1).val ∧ (i 1).val < win0_5.index (pointOf (i 0).val h0) (1 : Fin 2) * 12000 + 12000
    omega

/-! ## The arrays after the region -/

theorem pq_final (c : Dev nD) :
    (dats m 0 c).arrAt 3 cfg0.N = pqRows (V m c main_v4) (V m c main_v2) (V m c main_arg3) :=
  (dats m 0 c).arrAt_eq_of_cover 3 _ (fun t _ => pq_flushed m c t) pq_cover

theorem post_final (c : Dev nD) :
    (dats m 0 c).arrAt 4 cfg0.N = postRows (V m c main_v4) (V m c main_v2) (V m c main_arg3) :=
  (dats m 0 c).arrAt_eq_of_cover 4 _ (fun t _ => post_flushed m c t) post_cover

theorem resp_final (c : Dev nD) :
    (dats m 0 c).arrAt 5 cfg0.N = respRows (V m c main_v4) (V m c main_arg3) :=
  (dats m 0 c).arrAt_eq_of_cover 5 _ (fun t _ => resp_flushed m c t) resp_cover

end Cert.Cgmm

end
-- ==== Proof.Results.lean ====
/-
  The three results as functions of the four arguments.

  For sample n: the responsibilities, the transition posterior, and the state posterior, each of the sample's statistics,
  the layer weights, the arc weights and the transition array. The state posterior has the two spellings of Spec; with
  real entries throughout they are one function.
-/
import proofs.«173509_j89172111000085_2_alg».proof.Proof.Spec
import proofs.«173509_j89172111000085_2_alg».proof.Proof.SampleLayout

noncomputable section

open scoped BigOperators

namespace Cert.Cgmm

open Idealize.ShloMosaic Idealize.ShloMosaic.ValueIdx Cert.LibRealEntries

abbrev Stats : Shape := ⟨4, ![10000, 5, 6, 20]⟩
abbrev Layers : Shape := ⟨1, ![5]⟩
abbrev Arcs : Shape := ⟨2, ![5, 6]⟩
abbrev Trans : Shape := ⟨4, ![5, 6, 20, 20]⟩

/-- The weight of (layer, arc): the layer's weight times the arc's. -/
def jointWeight (ls : Layers.Idx → EReal) (aw : Arcs.Idx → EReal) : Fin 5 → Fin 6 → EReal :=
  fun l a => layerWeight ls l * weightOf aw l a

/-- The responsibilities [10000, 5, 6, 20, 20]. -/
def respOut (st : Stats.Idx → EReal) (tr : Trans.Idx → EReal) : (⟨5, ![10000, 5, 6, 20, 20]⟩ : Shape).Idx → EReal :=
  fun i => rterm (sampleStats st (i 0)) (transOf tr) (i 1) (i 2) (i 3) (i 4)

/-- The transition posterior [10000, 5, 6, 20, 20]. -/
def postOut (st : Stats.Idx → EReal) (ls : Layers.Idx → EReal) (aw : Arcs.Idx → EReal) (tr : Trans.Idx → EReal) :
    (⟨5, ![10000, 5, 6, 20, 20]⟩ : Shape).Idx → EReal :=
  fun i => post (sampleStats st (i 0)) (jointWeight ls aw) (transOf tr) (i 1) (i 2) (i 3) (i 4)

/-- The state posterior [10000, 20], the combined weight inside both sums. -/
def pqOut (st : Stats.Idx → EReal) (ls : Layers.Idx → EReal) (aw : Arcs.Idx → EReal) (tr : Trans.Idx → EReal) :
    (⟨2, ![10000, 20]⟩ : Shape).Idx → EReal :=
  fun i => pqJoint (sampleStats st (i 0)) (jointWeight ls aw) (transOf tr) (i 1)

/-- The state posterior [10000, 20], the layer weight outside the sum over arcs. -/
def pqOutNested (st : Stats.Idx → EReal) (ls : Layers.Idx → EReal) (aw : Arcs.Idx → EReal) (tr : Trans.Idx → EReal) :
    (⟨2, ![10000, 20]⟩ : Shape).Idx → EReal :=
  fun i => pqNested (sampleStats st (i 0)) (layerWeight ls) (weightOf aw) (transOf tr) (i 1)

/-- With real entries in all four arguments the two state posteriors are one array. -/
theorem pqOut_eq {st : Stats.Idx → EReal} {ls : Layers.Idx → EReal} {aw : Arcs.Idx → EReal} {tr : Trans.Idx → EReal}
    (hst : ∀ i, IsReal (st i)) (hls : ∀ i, IsReal (ls i)) (haw : ∀ i, IsReal (aw i)) (htr : ∀ i, IsReal (tr i)) :
    pqOut st ls aw tr = pqOutNested st ls aw tr := by
  funext i
  exact pq_eq (fun l a k => hst _) (fun l a c k => htr _) (fun l => hls _) (fun l a => haw _) (i 1)

end Cert.Cgmm

end
-- ==== Proof.KernelResults.lean ====
/-
  The host operations around the region, and the kernel program's three results.

  Before the region the host multiplies each layer's weight into its arc weights, lays the statistics out as 10000 rows of
  600 and pads them with 8 rows to 10008 (a whole number of blocks of 24). After it the host keeps the first 10000 rows
  of each array and reads the two long rows back by coordinates. Row n < 10000 of the padded statistics is sample n, so
  each result is the function of Results for the four arguments; the padding rows are cut away unread.
-/
import proofs.«173509_j89172111000085_2_alg».proof.Proof.KernelArrays
import proofs.«173509_j89172111000085_2_alg».proof.Proof.Results
import Idealize.ShloMosaic.Lib.StableHlo.Run
import Idealize.ShloMosaic.Lib.ValueLayout
import Idealize.ShloMosaic.Lib.KernelVsHost

set_option maxRecDepth 16384

noncomputable section

open scoped BigOperators

namespace Cert.Cgmm

open Idealize.ShloMosaic Idealize.ShloMosaic.TcCoe Idealize.ShloMosaic.ValueIdx Idealize.SL.Sem Idealize.ShloMosaic.StableHlo
open Cert.KernelIdeal Cert.KernelIdeal.Gen
open Idealize.ShloMosaic.Pipeline (Dat Cfg Window)

variable (m : (ℓ : Loc nD τ sig) → Buf (Elt Ideal) ℓ)

/-! ## What the region finds -/

/-- The padded statistics: the statistics as rows of 600, with 8 rows of the padding value behind. -/
theorem padded_stats (c : Dev nD) :
    (V m c main_v4 : S10008x600.Idx → EReal)
      = pad S10008x600 ![0, 0] ![8, 0] ![0, 0]
          (shapeCast S10000x600 (m ((c : Thread nD τ).loc main_arg0)) shapeCasts_S10000x5x6x20_S10000x600)
          (sitofp .f32 (constantI S_ 32 0#32) : FVec Ideal S_ .f32) pads_S10000x600_S10008x600_080_000 h_S_ := by
  dsimp only [Gen.V, Gen.V0]
  simp only [Gen.hostOps0, Gen.hostOps0_1, List.flatten_cons, List.flatten_nil, List.append_nil, List.cons_append, List.nil_append]
  after_results
  rfl

/-- The combined weights: each layer's weight spread over its arcs, times the arc weights. -/
theorem combined_term (c : Dev nD) :
    (V m c main_v2 : S5x6.Idx → EReal)
      = (mulf (broadcastInDim S5x6 ![0, 1] bcast_S5x1_S5x6_0_1
            (broadcastInDim S5x1 ![0] bcast_S5_S5x1_0 (m ((c : Thread nD τ).loc main_arg1) : FVec Ideal S5 .f32)))
          (m ((c : Thread nD τ).loc main_arg2) : FVec Ideal S5x6 .f32) : FVec Ideal S5x6 .f32) := by
  dsimp only [Gen.V, Gen.V0]
  simp only [Gen.hostOps0, Gen.hostOps0_1, List.flatten_cons, List.flatten_nil, List.append_nil, List.cons_append, List.nil_append]
  after_results

/-- Row n < 10000 of the padded statistics is sample n. -/
theorem padded_row (c : Dev nD) (n : Fin 10000) (n' : Fin 10008) (hn : n'.val = n.val) :
    rowStats (V m c main_v4 : S10008x600.Idx → EReal) n' = sampleStats (m ((c : Thread nD τ).loc main_arg0)) n := by
  funext l a k
  unfold rowStats sampleStats
  refine (congrFun (padded_stats m c) (ix2 n' (pos3 l a k))).trans ?_
  refine (pad_apply_of_inside _ _ _ _ _ _ _ (ix2 n' (pos3 l a k)) (ix2 n (pos3 l a k)) fun ax => ?_).trans
    (coords3_as_rows _ shapeCasts_S10000x5x6x20_S10000x600 n l a k)
  match ax with
  | ⟨0, _⟩ => show n'.val = 0 + n.val * (0 + 1); omega
  | ⟨1, _⟩ => show (pos3 l a k).val = 0 + (pos3 l a k).val * (0 + 1); omega

/-- The combined weights by coordinates. -/
theorem combined_weights (c : Dev nD) :
    weightOf (V m c main_v2 : S5x6.Idx → EReal) = jointWeight (m ((c : Thread nD τ).loc main_arg1)) (m ((c : Thread nD τ).loc main_arg2)) := by
  funext l a
  unfold weightOf jointWeight layerWeight
  refine (congrFun (combined_term m c) (ix2 l a)).trans ?_
  rw [mulf_apply]
  refine congrArg₂ (· * ·) ?_ rfl
  refine (broadcastInDim_apply _ bcast_S5x1_S5x6_0_1 _ (ix2 l a) (ix2 l (0 : Fin 1)) fun ax => ?_).trans
    (broadcastInDim_apply _ bcast_S5_S5x1_0 _ (ix2 l (0 : Fin 1)) (ix1 l) fun ax => ?_)
  · match ax with
    | ⟨0, _⟩ => rfl
    | ⟨1, _⟩ => rfl
  · match ax with
    | ⟨0, _⟩ => rfl

/-- The transition array is the argument. -/
theorem trans_arg (c : Dev nD) : transOf (V m c main_arg3 : S5x6x20x20.Idx → EReal) = transOf (m ((c : Thread nD τ).loc main_arg3)) := by
  rw [V_main_arg3]

/-! ## The region's arrays, as the host operations after it find them -/

theorem pq_array (c : Dev nD) :
    (Pipeline.withArrays (cfgs 0).spec c (V0 m c) (fun w => (dats m 0 c).arrAt w (cfgs 0).N) (Proc.devRef .tc main_v5_0) : S10008x20.Idx → EReal)
      = pqRows (V m c main_v4) (V m c main_v2) (V m c main_arg3) :=
  (Pipeline.withArrays_arr spec0 launch0.win.arr_inj c _ _ 3).trans (pq_final m c)

theorem post_array (c : Dev nD) :
    (Pipeline.withArrays (cfgs 0).spec c (V0 m c) (fun w => (dats m 0 c).arrAt w (cfgs 0).N) (Proc.devRef .tc main_v5_1) : S10008x12000.Idx → EReal)
      = postRows (V m c main_v4) (V m c main_v2) (V m c main_arg3) :=
  (Pipeline.withArrays_arr spec0 launch0.win.arr_inj c _ _ 4).trans (post_final m c)

theorem resp_array (c : Dev nD) :
    (Pipeline.withArrays (cfgs 0).spec c (V0 m c) (fun w => (dats m 0 c).arrAt w (cfgs 0).N) (Proc.devRef .tc main_v5_2) : S10008x12000.Idx → EReal)
      = respRows (V m c main_v4) (V m c main_arg3) :=
  (Pipeline.withArrays_arr spec0 launch0.win.arr_inj c _ _ 5).trans (resp_final m c)

/-! ## The three results -/

/-- The state posterior the program returns. -/
theorem kernel_pq (c : Dev nD) :
    (Pipeline.afterTail₀ cfgs (dats m) 0 (V0 m) [hostOps1] c main_v6 : S10000x20.Idx → EReal)
      = pqOut (m ((c : Thread nD τ).loc main_arg0)) (m ((c : Thread nD τ).loc main_arg1)) (m ((c : Thread nD τ).loc main_arg2))
          (m ((c : Thread nD τ).loc main_arg3)) := by
  unfold Pipeline.afterTail₀
  show StableHlo.after hostOps1 _ (Proc.devRef .tc main_v6) = _
  after_results
  rw [pq_array]
  funext i
  obtain ⟨n, q, rfl⟩ : ∃ (n : Fin 10000) (q : Fin 20), i = ix2 n q := ⟨i 0, i 1, eq_ix2 i⟩
  have hn : n.val < 10008 := by have := n.isLt; omega
  refine (slice2_axis0_apply 0 _ slices_S10008x20_S10000x20_0_0 n q ⟨n.val, hn⟩ (by simp)).trans ?_
  show pqJoint (rowStats (V m c main_v4 : S10008x600.Idx → EReal) ⟨n.val, hn⟩) (weightOf (V m c main_v2 : S5x6.Idx → EReal))
      (transOf (V m c main_arg3 : S5x6x20x20.Idx → EReal)) q = _
  rw [padded_row m c n ⟨n.val, hn⟩ rfl, combined_weights, trans_arg]
  rfl

/-- The transition posterior the program returns. -/
theorem kernel_post (c : Dev nD) :
    (Pipeline.afterTail₀ cfgs (dats m) 0 (V0 m) [hostOps1] c main_v9 : S10000x5x6x20x20.Idx → EReal)
      = postOut (m ((c : Thread nD τ).loc main_arg0)) (m ((c : Thread nD τ).loc main_arg1)) (m ((c : Thread nD τ).loc main_arg2))
          (m ((c : Thread nD τ).loc main_arg3)) := by
  unfold Pipeline.afterTail₀
  show StableHlo.after hostOps1 _ (Proc.devRef .tc main_v9) = _
  after_results
  rw [post_array]
  funext i
  obtain ⟨n, l, a, s, k, rfl⟩ : ∃ (n : Fin 10000) (l : Fin 5) (a : Fin 6) (s k : Fin 20), i = ix5 n l a s k :=
    ⟨i 0, i 1, i 2, i 3, i 4, eq_ix5 i⟩
  have hn : n.val < 10008 := by have := n.isLt; omega
  show shapeCast S10000x5x6x20x20 (extractStridedSlice S10000x12000 ![0, 0] (postRows (V m c main_v4) (V m c main_v2) (V m c main_arg3))
      slices_S10008x12000_S10000x12000_0_0) shapeCasts_S10000x12000_S10000x5x6x20x20 (ix5 n l a s k) = _
  refine (rows_as_coords4 _ shapeCasts_S10000x12000_S10000x5x6x20x20 n l a s k).trans ?_
  refine (slice2_axis0_apply 0 _ slices_S10008x12000_S10000x12000_0_0 n (pos4 l a s k) ⟨n.val, hn⟩ (by simp)).trans ?_
  show post (rowStats (V m c main_v4 : S10008x600.Idx → EReal) ⟨n.val, hn⟩) (weightOf (V m c main_v2 : S5x6.Idx → EReal))
      (transOf (V m c main_arg3 : S5x6x20x20.Idx → EReal)) (layerOf (pos4 l a s k)) (arcOf (pos4 l a s k)) (stateOf (pos4 l a s k))
      (nextOf (pos4 l a s k)) = _
  rw [layerOf_pos4, arcOf_pos4, stateOf_pos4, nextOf_pos4, padded_row m c n ⟨n.val, hn⟩ rfl, combined_weights, trans_arg]
  rfl

/-- The responsibilities the program returns. -/
theorem kernel_resp (c : Dev nD) :
    (Pipeline.afterTail₀ cfgs (dats m) 0 (V0 m) [hostOps1] c main_v10 : S10000x5x6x20x20.Idx → EReal)
      = respOut (m ((c : Thread nD τ).loc main_arg0)) (m ((c : Thread nD τ).loc main_arg3)) := by
  unfold Pipeline.afterTail₀
  show StableHlo.after hostOps1 _ (Proc.devRef .tc main_v10) = _
  after_results
  rw [resp_array]
  funext i
  obtain ⟨n, l, a, s, k, rfl⟩ : ∃ (n : Fin 10000) (l : Fin 5) (a : Fin 6) (s k : Fin 20), i = ix5 n l a s k :=
    ⟨i 0, i 1, i 2, i 3, i 4, eq_ix5 i⟩
  have hn : n.val < 10008 := by have := n.isLt; omega
  show shapeCast S10000x5x6x20x20 (extractStridedSlice S10000x12000 ![0, 0] (respRows (V m c main_v4) (V m c main_arg3))
      slices_S10008x12000_S10000x12000_0_0) shapeCasts_S10000x12000_S10000x5x6x20x20 (ix5 n l a s k) = _
  refine (rows_as_coords4 _ shapeCasts_S10000x12000_S10000x5x6x20x20 n l a s k).trans ?_
  refine (slice2_axis0_apply 0 _ slices_S10008x12000_S10000x12000_0_0 n (pos4 l a s k) ⟨n.val, hn⟩ (by simp)).trans ?_
  show rterm (rowStats (V m c main_v4 : S10008x600.Idx → EReal) ⟨n.val, hn⟩) (transOf (V m c main_arg3 : S5x6x20x20.Idx → EReal))
      (layerOf (pos4 l a s k)) (arcOf (pos4 l a s k)) (stateOf (pos4 l a s k)) (nextOf (pos4 l a s k)) = _
  rw [layerOf_pos4, arcOf_pos4, stateOf_pos4, nextOf_pos4, padded_row m c n ⟨n.val, hn⟩ rfl, trans_arg]
  rfl

/-! ## The run -/

/-- Every weakly fair execution of the kernel program ends with its three results at the functions of Results of the
    four arguments, and the arguments as launched. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v6)
          = pqOut (m ((c.tc : Thread nD τ).loc main_arg0)) (m ((c.tc : Thread nD τ).loc main_arg1)) (m ((c.tc : Thread nD τ).loc main_arg2))
              (m ((c.tc : Thread nD τ).loc main_arg3))
      ∧ r.2.mem ((c.tc : Thread nD τ).loc main_v9)
          = postOut (m ((c.tc : Thread nD τ).loc main_arg0)) (m ((c.tc : Thread nD τ).loc main_arg1)) (m ((c.tc : Thread nD τ).loc main_arg2))
              (m ((c.tc : Thread nD τ).loc main_arg3))
      ∧ r.2.mem ((c.tc : Thread nD τ).loc main_v10)
          = respOut (m ((c.tc : Thread nD τ).loc main_arg0)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨
      ((h c).2 main_v6 (Pipeline.mem_restRefs_of main_v6 (by decide) (by decide))).trans (kernel_pq m c),
      ((h c).2 main_v9 (Pipeline.mem_restRefs_of main_v9 (by decide) (by decide))).trans (kernel_post m c),
      ((h c).2 main_v10 (Pipeline.mem_restRefs_of main_v10 (by decide) (by decide))).trans (kernel_resp m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c)))⟩)
    (run_main m ρ)

end Cert.Cgmm

end
-- ==== Proof.RefValue.lean ====
/-
  The reference's three results, read at coordinates.

  The reference works on the whole batch in coordinate form [10000, 5, 6, 20]: for sample n its totals are the sums over
  the state k from zero, its responsibilities the quotient by the fixed totals, its transition posterior the
  responsibilities scaled by layer weight times arc weight, and its state posterior weighs with the arc weight inside the
  sum over arcs and the layer weight outside it (Spec: `pqNested`). Each result is read one operation at a time; the
  index each operation reads its operand at is an explicit tuple of coordinates.
-/
import proofs.«173509_j89172111000085_2_alg».proof.Proof.Gen.ReferenceIdeal.Read
import proofs.«173509_j89172111000085_2_alg».proof.Proof.Spec
import proofs.«173509_j89172111000085_2_alg».proof.Proof.SampleLayout

noncomputable section

open scoped BigOperators

namespace Cert.Cgmm.Ref

open Idealize.ShloMosaic Idealize.ShloMosaic.ValueIdx Cert.Cgmm Cert.ReferenceIdeal Cert.ReferenceIdeal.Read

variable (x0 : S10000x5x6x20.Idx → EReal) (x1 : S5.Idx → EReal) (x2 : S5x6.Idx → EReal) (x3 : S5x6x20x20.Idx → EReal)

/-- The total of sample n on (l, a), as the reference spreads it over two unit axes. -/
theorem total_apply (n : Fin 10000) (l : Fin 5) (a : Fin 6) (z z' : Fin 1) :
    val_main_v2 (F := Ideal) x0 (ix5 n l a z z') = total (sampleStats x0 n) l a := by
  rw [val_main_v2_apply, val_main_v1_apply, val_main_v0_apply, val_main_cst_apply, Ideal.ofBits_def, Ideal.ofBits_zero_f32, zero_add]
  unfold total sampleStats
  refine Finset.sum_congr rfl fun k _ => congrArg x0 (funext fun ax => Fin.ext ?_)
  match ax with
  | ⟨0, _⟩ => rfl
  | ⟨1, _⟩ => rfl
  | ⟨2, _⟩ => rfl
  | ⟨3, _⟩ => rfl

/-- The fixed total: an empty neighbourhood counted as one. -/
theorem fixed_apply (n : Fin 10000) (l : Fin 5) (a : Fin 6) (z z' : Fin 1) :
    val_main_v5 (F := Ideal) x0 (ix5 n l a z z') = fixTotal (total (sampleStats x0 n) l a) := by
  rw [val_main_v5_apply, val_main_v4_apply, total_apply, val_main_call0_v0_apply, val_main_cst_1_apply, val_main_v3_apply,
    val_main_cst_0_apply]
  rfl

/-- The responsibilities. -/
theorem resp_apply (n : Fin 10000) (l : Fin 5) (a : Fin 6) (c k : Fin 20) :
    val_main_v12 (F := Ideal) x0 x3 (ix5 n l a c k) = rterm (sampleStats x0 n) (transOf x3) l a c k := by
  have e11 : idx_main_v11 (ix5 n l a c k) = ix5 n l a (0 : Fin 1) (0 : Fin 1) :=
    funext fun ax => Fin.ext (by match ax with | ⟨0, _⟩ => rfl | ⟨1, _⟩ => rfl | ⟨2, _⟩ => rfl | ⟨3, _⟩ => rfl | ⟨4, _⟩ => rfl)
  rw [val_main_v12_apply, val_main_v10_apply, val_main_v8_apply, val_main_v6_apply, val_main_v9_apply, val_main_v7_apply,
    val_main_v11_apply, e11, fixed_apply]
  unfold rterm sampleStats transOf
  refine congrArg₂ Ideal.div (congrArg₂ (· * ·) (congrArg x3 (funext fun ax => Fin.ext ?_)) (congrArg x0 (funext fun ax => Fin.ext ?_))) rfl
  · match ax with
    | ⟨0, _⟩ => rfl
    | ⟨1, _⟩ => rfl
    | ⟨2, _⟩ => rfl
    | ⟨3, _⟩ => rfl
  · match ax with
    | ⟨0, _⟩ => rfl
    | ⟨1, _⟩ => rfl
    | ⟨2, _⟩ => rfl
    | ⟨3, _⟩ => rfl

/-- The transition posterior: the responsibility scaled by layer weight times arc weight. -/
theorem post_apply (n : Fin 10000) (l : Fin 5) (a : Fin 6) (c k : Fin 20) :
    val_main_v27 (F := Ideal) x0 x1 x2 x3 (ix5 n l a c k)
      = post (sampleStats x0 n) (fun l a => layerWeight x1 l * weightOf x2 l a) (transOf x3) l a c k := by
  rw [val_main_v27_apply, val_main_v26_apply, val_main_v25_apply, val_main_v24_apply, val_main_v22_apply, val_main_v23_apply,
    resp_apply]
  unfold post layerWeight weightOf
  refine congrArg₂ (· * ·) (congrArg₂ (· * ·) (congrArg x1 (funext fun ax => Fin.ext ?_)) (congrArg x2 (funext fun ax => Fin.ext ?_))) rfl
  · match ax with
    | ⟨0, _⟩ => rfl
  · match ax with
    | ⟨0, _⟩ => rfl
    | ⟨1, _⟩ => rfl

/-- The state posterior: the arc weight inside the sum over arcs, the layer weight outside it. -/
theorem pq_apply (n : Fin 10000) (c : Fin 20) :
    val_main_v21 (F := Ideal) x0 x1 x2 x3 (ix2 n c)
      = pqNested (sampleStats x0 n) (layerWeight x1) (weightOf x2) (transOf x3) c := by
  rw [val_main_v21_apply, val_main_cst_4_apply, Ideal.ofBits_def, Ideal.ofBits_zero_f32, zero_add]
  unfold pqNested
  refine Finset.sum_congr rfl fun l _ => ?_
  have e21 : idx_main_v21 (ix2 n c) l = ix3 n l c :=
    funext fun ax => Fin.ext (by match ax with | ⟨0, _⟩ => rfl | ⟨1, _⟩ => rfl | ⟨2, _⟩ => rfl)
  rw [e21, val_main_v20_apply, val_main_v19_apply, val_main_v18_apply, val_main_v17_apply, val_main_cst_3_apply, Ideal.ofBits_def,
    Ideal.ofBits_zero_f32, zero_add]
  refine congrArg₂ (· * ·) (congrArg x1 (funext fun ax => Fin.ext (by match ax with | ⟨0, _⟩ => rfl))) ?_
  refine Finset.sum_congr rfl fun a _ => ?_
  have e17 : idx_main_v17 (ix3 n l c) a = ix4 n l a c :=
    funext fun ax => Fin.ext (by match ax with | ⟨0, _⟩ => rfl | ⟨1, _⟩ => rfl | ⟨2, _⟩ => rfl | ⟨3, _⟩ => rfl)
  rw [e17, val_main_v16_apply, val_main_v15_apply, val_main_v13_apply, val_main_v14_apply, val_main_cst_2_apply, Ideal.ofBits_def,
    Ideal.ofBits_zero_f32, zero_add]
  refine congrArg₂ (· * ·) (congrArg x2 (funext fun ax => Fin.ext (by match ax with | ⟨0, _⟩ => rfl | ⟨1, _⟩ => rfl))) ?_
  unfold rsum
  refine Finset.sum_congr rfl fun k _ => ?_
  have e14 : idx_main_v14 (ix4 n l a c) k = ix5 n l a c k :=
    funext fun ax => Fin.ext (by match ax with | ⟨0, _⟩ => rfl | ⟨1, _⟩ => rfl | ⟨2, _⟩ => rfl | ⟨3, _⟩ => rfl | ⟨4, _⟩ => rfl)
  rw [e14, resp_apply]

end Cert.Cgmm.Ref

end
-- ==== Proof.LibPreRead.lean ====
/-
  Reading a printed precondition's comparisons back as facts about an extended real.

  A comparison of extended reals is the linear order's: `x ≥ y` answers 1 exactly when `y ≤ x`, `x < y` exactly
  when `x < y`. The pattern `0x7F800000` denotes `+∞` and the zero pattern `0`. So an entry `x` with
  `|x| < +∞` (where `|x| = max x (-x)`) and `x ≥ 0` is a real number `r ≥ 0`: it is not `+∞` by the first fact and not
  `-∞` by the second.
-/
import Idealize.ShloMosaic.PureOps.Ideal

noncomputable section

namespace Cert.Lib.PreRead

open Idealize.ShloMosaic

/-- The pattern of `+inf` denotes `⊤`. -/
theorem ofBits_inf : Ideal.ofBits .f32 0x7F800000#32 = ⊤ := by
  simp [Ideal.ofBits, Ideal.ieee]

/-- The zero pattern denotes `0`. -/
theorem ofBits_zero : Ideal.ofBits .f32 0x00000000#32 = 0 := by
  simp [Ideal.ofBits, Ideal.ieee]

/-- `x ≥ y` answers 1 exactly when `y ≤ x`. -/
theorem cmp_oge_eq_one {x y : EReal} : Ideal.cmp .oge x y = 1#1 ↔ y ≤ x := by
  by_cases h : y ≤ x <;> simp [Ideal.cmp, h]

/-- `x < y` answers 1 exactly when `x < y`. -/
theorem cmp_olt_eq_one {x y : EReal} : Ideal.cmp .olt x y = 1#1 ↔ x < y := by
  by_cases h : x < y <;> simp [Ideal.cmp, h]

/-- An entry with `|x| < +inf`, as the printed comparison, is a real number: `max x (-x) < ⊤` excludes both infinities. -/
theorem real_of_abs_lt_inf {x : EReal}
    (hfin : Ideal.cmp .olt (max x (-x)) (Ideal.ofBits .f32 0x7F800000#32) = 1#1) :
    ∃ r : ℝ, x = (r : EReal) := by
  rw [cmp_olt_eq_one, ofBits_inf] at hfin
  have hx_top : x ≠ ⊤ := fun h => by simp [h] at hfin
  have hx_bot : x ≠ ⊥ := fun h => by simp [h] at hfin
  exact ⟨x.toReal, (EReal.coe_toReal hx_top hx_bot).symm⟩

/-- An entry with `|x| < +inf` and `x ≥ 0`, both as the printed comparisons, is a real `r ≥ 0`. -/
theorem real_nonneg_of_cmp {x : EReal}
    (hfin : Ideal.cmp .olt (max x (-x)) (Ideal.ofBits .f32 0x7F800000#32) = 1#1)
    (hpos : Ideal.cmp .oge x (Ideal.ofBits .f32 0x00000000#32) = 1#1) :
    ∃ r : ℝ, 0 ≤ r ∧ x = (r : EReal) := by
  rw [cmp_olt_eq_one, ofBits_inf] at hfin
  rw [cmp_oge_eq_one, ofBits_zero] at hpos
  have hx_top : x ≠ ⊤ := fun h => by simp [h] at hfin
  have hx_bot : x ≠ ⊥ := fun h => by simp [h] at hpos
  exact ⟨x.toReal, EReal.toReal_nonneg hpos, (EReal.coe_toReal hx_top hx_bot).symm⟩

end Cert.Lib.PreRead

end
-- ==== Proof.FiniteInputs.lean ====
/-
  The precondition read back: every entry of the four arguments is a real number.

  The precondition is the conjunction of four tests, one per argument, each "every entry x has |x| < +inf", where
  |x| = max x (-x) on the extended reals and the test over all entries is a reduction by `and` from `true`. An entry with
  max x (-x) < +inf is neither infinity, so it is a real number.
-/
import proofs.«173509_j89172111000085_2_alg».proof.Pre_finite_inputs
import proofs.«173509_j89172111000085_2_alg».proof.Proof.LibPreRead
import proofs.«173509_j89172111000085_2_alg».proof.Proof.LibRealEntries
import Idealize.ShloMosaic.Lib.ReduceAll
import Idealize.ShloMosaic.Lib.Affine
import Idealize.ShloMosaic.Lib.ValueIdx

noncomputable section

namespace Cert.Cgmm

open Idealize.ShloMosaic Cert.LibRealEntries

instance scalarIdxSubsingleton : Subsingleton Cert.Pre_finite_inputs.S_.Idx := ⟨fun _ _ => funext fun d => d.elim0⟩

open Cert.Pre_finite_inputs in
/-- Under the precondition every entry of every argument is a real number. -/
theorem real_of_finite [Cert.Pre_finite_inputs.Facts] (a0 : FVec Ideal S10000x5x6x20 .f32) (a1 : FVec Ideal S5 .f32)
    (a2 : FVec Ideal S5x6 .f32) (a3 : FVec Ideal S5x6x20x20 .f32)
    (h : Cert.Pre_finite_inputs.fn (F := Ideal) a0 a1 a2 a3 = fun _ => 1#1) :
    (∀ i, IsReal (a0 i)) ∧ (∀ i, IsReal (a1 i)) ∧ (∀ i, IsReal (a2 i)) ∧ (∀ i, IsReal (a3 i)) := by
  have h0 := congrFun h ValueIdx.ix0
  dsimp only [fn, fn_part1, andi] at h0
  rw [IntOp.andi_eq_one, IntOp.andi_eq_one, IntOp.andi_eq_one] at h0
  obtain ⟨⟨⟨r0, r1⟩, r2⟩, r3⟩ := h0
  exact ⟨fun i => Cert.Lib.PreRead.real_of_abs_lt_inf (Host.reduce_andi_all _ _ _ _ _ r0 i),
    fun i => Cert.Lib.PreRead.real_of_abs_lt_inf (Host.reduce_andi_all _ _ _ _ _ r1 i),
    fun i => Cert.Lib.PreRead.real_of_abs_lt_inf (Host.reduce_andi_all _ _ _ _ _ r2 i),
    fun i => Cert.Lib.PreRead.real_of_abs_lt_inf (Host.reduce_andi_all _ _ _ _ _ r3 i)⟩

end Cert.Cgmm

end
-- ==== Proof.lean ====
/-
  One EM step of a mixture model over neighbourhoods, 10000 samples with 5 layers, 6 arcs and 20 states each: a tiled
  kernel program against a whole-batch reference, equal on the extended reals.

  Both programs form, for every sample, the responsibilities

      R[n, l, a, c, k] = (transition[l, a, c, k] * stats[n, l, a, k]) / total[n, l, a],

  the total being the sum of the sample's statistics over k with an empty neighbourhood (total 0) counted as 1; the
  transition posterior layerS[l] * arcS[l, a] * R; and the state posterior, the sum over layers, arcs and k of the
  weighted R. The kernel program multiplies the two weights once on the host, lays the statistics out as flat rows padded to
  a whole number of blocks of 24 samples, computes each block on its own grid point, and cuts the padding rows away; row n
  of every result depends on row n of the statistics alone, so the tiling and the padding do not show in the results. The
  responsibilities and the transition posterior are then the same expression in both programs. The state posterior is
  not: the kernel weighs by layerS[l] * arcS[l, a] inside both sums, the reference by arcS[l, a] inside the sum over arcs
  and by layerS[l] outside it. A product distributes over a sum of extended reals only away from the infinities; under the
  precondition every entry of the four arguments is a real number, so is every total, every fixed total is a NONZERO real,
  every responsibility is real, and the two spellings agree. The idealization rewrote nothing, so its claim is empty.
-/
import proofs.«173509_j89172111000085_2_alg».proof.Defs
import proofs.«173509_j89172111000085_2_alg».proof.Proof.Gen.Kernel
import proofs.«173509_j89172111000085_2_alg».proof.Proof.Gen.Kernel.Skeleton
import proofs.«173509_j89172111000085_2_alg».proof.Proof.Gen.Kernel.Launch
import proofs.«173509_j89172111000085_2_alg».proof.Proof.Gen.Kernel.Points
import proofs.«173509_j89172111000085_2_alg».proof.Proof.Gen.Kernel.Frame
import proofs.«173509_j89172111000085_2_alg».proof.Proof.Gen.KernelIdeal
import proofs.«173509_j89172111000085_2_alg».proof.Proof.Gen.KernelIdeal.Skeleton
import proofs.«173509_j89172111000085_2_alg».proof.Proof.Gen.KernelIdeal.Launch
import proofs.«173509_j89172111000085_2_alg».proof.Proof.Gen.KernelIdeal.Points
import proofs.«173509_j89172111000085_2_alg».proof.Proof.Gen.KernelIdeal.Frame
import proofs.«173509_j89172111000085_2_alg».proof.Proof.Gen.ReferenceIdeal
import proofs.«173509_j89172111000085_2_alg».proof.Proof.Gen.Pre_finite_inputs
import proofs.«173509_j89172111000085_2_alg».proof.Proof.Gen.ReferenceIdeal.Run
import proofs.«173509_j89172111000085_2_alg».proof.Proof.Gen.ReferenceIdeal.Read
import proofs.«173509_j89172111000085_2_alg».proof.Proof.KernelResults
import proofs.«173509_j89172111000085_2_alg».proof.Proof.RefValue
import proofs.«173509_j89172111000085_2_alg».proof.Proof.FiniteInputs
import Idealize.ShloMosaic.Adequacy
import Idealize.ShloMosaic.Init

noncomputable section

namespace Cert.Proof

open Idealize.ShloMosaic Idealize.ShloMosaic.ValueIdx Idealize.SL.Sem Cert.Cgmm

/-- The word-level kernel program runs and keeps its arguments. -/
theorem frame_kernel : Cert.frame_Kernel := fun m ρ _ => Cert.Kernel.Gen.frame m ρ

/-- So does the idealized one. -/
theorem frame_kernelIdeal : Cert.frame_KernelIdeal := fun m ρ _ => Cert.KernelIdeal.Gen.frame m ρ

/-- The reference runs and keeps its arguments: its run, with the results forgotten. -/
theorem frame_reference : Cert.frame_ReferenceIdeal := fun m ρ _ =>
  (θ_run Cert.ReferenceIdeal.defs _ _).mono (fun _ h c => (h c).2.2.2) (Cert.ReferenceIdeal.Value.run (F := Ideal) m ρ)

/-- The two idealized programs end with equal results: the kernel's run leaves the three functions of Results of the
    arguments; the reference's run leaves its operations' terms, which read at coordinates are the same responsibilities
    and transition posterior, and the state posterior with the layer weight outside the sum over arcs, equal to the
    kernel's because the precondition makes every entry real. -/
theorem algebraic : Cert.algebraic_KernelIdeal_ReferenceIdeal := by
  intro m ρ m' ρ' hpre hagree
  refine ⟨fun c => pqOut (m ((c.tc : Thread _ _).loc Cert.KernelIdeal.main_arg0)) (m ((c.tc : Thread _ _).loc Cert.KernelIdeal.main_arg1))
        (m ((c.tc : Thread _ _).loc Cert.KernelIdeal.main_arg2)) (m ((c.tc : Thread _ _).loc Cert.KernelIdeal.main_arg3)),
      fun c => postOut (m ((c.tc : Thread _ _).loc Cert.KernelIdeal.main_arg0)) (m ((c.tc : Thread _ _).loc Cert.KernelIdeal.main_arg1))
        (m ((c.tc : Thread _ _).loc Cert.KernelIdeal.main_arg2)) (m ((c.tc : Thread _ _).loc Cert.KernelIdeal.main_arg3)),
      fun c => respOut (m ((c.tc : Thread _ _).loc Cert.KernelIdeal.main_arg0)) (m ((c.tc : Thread _ _).loc Cert.KernelIdeal.main_arg3)),
      kernel_run m ρ, ?_⟩
  refine (θ_run Cert.ReferenceIdeal.defs _ _).mono (fun r h c => ?_) (Cert.ReferenceIdeal.Value.run (F := Ideal) m' ρ')
  obtain ⟨h21, h27, h12, ha0, ha1, ha2, ha3⟩ := h c
  obtain ⟨e0, e1, e2, e3⟩ := hagree c
  obtain ⟨r0, r1, r2, r3⟩ := real_of_finite _ _ _ _ (hpre c)
  refine ⟨h21.trans ?_, h27.trans ?_, h12.trans ?_, ha0, ha1, ha2, ha3⟩
  · show _ = pqOut _ _ _ _
    rw [e0, e1, e2, e3, pqOut_eq r0 r1 r2 r3]
    funext i
    obtain ⟨n, q, rfl⟩ : ∃ (n : Fin 10000) (q : Fin 20), i = ix2 n q := ⟨i 0, i 1, eq_ix2 i⟩
    exact Cert.Cgmm.Ref.pq_apply _ _ _ _ n q
  · rw [e0, e1, e2, e3]
    funext i
    obtain ⟨n, l, a, s, k, rfl⟩ : ∃ (n : Fin 10000) (l : Fin 5) (a : Fin 6) (s k : Fin 20), i = ix5 n l a s k :=
      ⟨i 0, i 1, i 2, i 3, i 4, eq_ix5 i⟩
    exact Cert.Cgmm.Ref.post_apply _ _ _ _ n l a s k
  · rw [e0, e3]
    funext i
    obtain ⟨n, l, a, s, k, rfl⟩ : ∃ (n : Fin 10000) (l : Fin 5) (a : Fin 6) (s k : Fin 20), i = ix5 n l a s k :=
      ⟨i 0, i 1, i 2, i 3, i 4, eq_ix5 i⟩
    exact Cert.Cgmm.Ref.resp_apply _ _ n l a s k

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
